-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x32 : Shape := ⟨3, ![4, 8192, 32]⟩
abbrev S_ : Shape := ⟨0, ![]⟩

class Facts : Prop where
  bcast_S_S4x8192x32 : S_.BroadcastsInDim S4x8192x32 (![] : Fin 0 → Fin S4x8192x32.rank)
  reducesTo_S4x8192x32_S_d0_1_2 : S4x8192x32.ReducesTo [0, 1, 2] S_
  h_S_ : 0 < S_.numel

variable [Facts]

def fn {F : FTy → Type} [FloatOps F] (main_arg0 : FVec F S4x8192x32 .f32) (main_arg1 : FVec F S4x8192x32 .f32) : IVec S_ 1 :=
  let main_v0 : FVec F S4x8192x32 .f32 := Host.absf main_arg0
  let main_cst : FVec F S_ .f32 := constant S_ .f32 0x7F800000#32
  let main_v1 : FVec F S4x8192x32 .f32 := broadcastInDim S4x8192x32 ![] bcast_S_S4x8192x32 main_cst
  let main_v2 : IVec S4x8192x32 1 := cmpf .olt main_v0 main_v1
  let main_c : IVec S_ 1 := constantI S_ 1 1#1
  let main_v3 : IVec S_ 1 := (fun x v => Host.reduce IntOp.andi x v reducesTo_S4x8192x32_S_d0_1_2 h_S_) main_v2 main_c
  let main_v4 : FVec F S4x8192x32 .f32 := Host.absf main_arg1
  let main_cst_0 : FVec F S_ .f32 := constant S_ .f32 0x7F800000#32
  let main_v5 : FVec F S4x8192x32 .f32 := broadcastInDim S4x8192x32 ![] bcast_S_S4x8192x32 main_cst_0
  let main_v6 : IVec S4x8192x32 1 := cmpf .olt main_v4 main_v5
  let main_c_1 : IVec S_ 1 := constantI S_ 1 1#1
  let main_v7 : IVec S_ 1 := (fun x v => Host.reduce IntOp.andi x v reducesTo_S4x8192x32_S_d0_1_2 h_S_) main_v6 main_c_1
  let main_v8 : IVec S_ 1 := andi main_v3 main_v7
  main_v8
-- ==== Kernel.lean ====
abbrev S4x8192x32 : Shape := ⟨3, ![4, 8192, 32]⟩
abbrev S4x1x8192 : Shape := ⟨3, ![4, 1, 8192]⟩
abbrev S1x1024x32 : Shape := ⟨3, ![1, 1024, 32]⟩
abbrev S1x512x32 : Shape := ⟨3, ![1, 512, 32]⟩
abbrev S1x1x1024 : Shape := ⟨3, ![1, 1, 1024]⟩
abbrev S1x1x8192 : Shape := ⟨3, ![1, 1, 8192]⟩
abbrev S1x1024 : Shape := ⟨2, ![1, 1024]⟩
abbrev S1x8192 : Shape := ⟨2, ![1, 8192]⟩
abbrev S1024x32 : Shape := ⟨2, ![1024, 32]⟩
abbrev S512x32 : Shape := ⟨2, ![512, 32]⟩
abbrev S1024 : Shape := ⟨1, ![1024]⟩
abbrev S1024x1 : Shape := ⟨2, ![1024, 1]⟩
abbrev S512 : Shape := ⟨1, ![512]⟩
abbrev S32x512 : Shape := ⟨2, ![32, 512]⟩
abbrev S1024x512 : Shape := ⟨2, ![1024, 512]⟩
abbrev S1x512 : Shape := ⟨2, ![1, 512]⟩
abbrev S4x8192 : Shape := ⟨2, ![4, 8192]⟩
abbrev S_ : Shape := ⟨0, ![]⟩

abbrev nBuf : Space → Nat
  | .hbm => 15
  | .vmem => 10
  | .smem => 0
  | _ => 0

abbrev bufTy : (tb : Table) → Fin (tcTables nBuf tb) → BufTy
  | .hbm, ⟨0, _⟩ => ⟨S4x8192x32, .f32⟩
  | .hbm, ⟨1, _⟩ => ⟨S4x8192x32, .f32⟩
  | .hbm, ⟨2, _⟩ => ⟨S4x1x8192, .f32⟩
  | .hbm, ⟨3, _⟩ => ⟨S4x1x8192, .f32⟩
  | .hbm, ⟨4, _⟩ => ⟨S4x8192, .f32⟩
  | .hbm, ⟨5, _⟩ => ⟨S4x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x1024x32, .f32⟩
  | .local _ .vmem, ⟨1, _⟩ => ⟨S1x1024x32, .f32⟩
  | .local _ .vmem, ⟨2, _⟩ => ⟨S1x512x32, .f32⟩
  | .local _ .vmem, ⟨3, _⟩ => ⟨S1x512x32, .f32⟩
  | .local _ .vmem, ⟨4, _⟩ => ⟨S1x1x1024, .f32⟩
  | .local _ .vmem, ⟨5, _⟩ => ⟨S1x1x1024, .f32⟩
  | .local _ .vmem, ⟨6, _⟩ => ⟨S1x1x8192, .f32⟩
  | .local _ .vmem, ⟨7, _⟩ => ⟨S1x1x8192, .f32⟩
  | .local _ .vmem, ⟨8, _⟩ => ⟨S1x1024, .f32⟩
  | .local _ .vmem, ⟨9, _⟩ => ⟨S1x8192, .f32⟩
  | _, _ => ⟨S4x8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 16], ![false, false, false]⟩

def k0_mult1 (i : grid0.Coords) : BitVec 32 :=
  let arg2 : BitVec 32 := BitVec.ofNat 32 (i 2).val
  let c512_i32 : BitVec 32 := 512#32
  let v39 : BitVec 32 := Scalar.muli arg2 c512_i32
  v39
def k0_off1 (i : grid0.Coords) : Fin 2 → Nat :=
  let c0_19 : Index := 0#32
  let arg2 : BitVec 32 := BitVec.ofNat 32 (i 2).val
  let c512_i32 : BitVec 32 := 512#32
  let v39 : BitVec 32 := Scalar.muli arg2 c512_i32
  let v40 : BitVec 32 := v39
  let v41 : Index := Scalar.indexCast v40
  ![0, v41.toNat]
def k0_cond3 (i : grid0.Coords) : BitVec 1 :=
  let arg2 : BitVec 32 := BitVec.ofNat 32 (i 2).val
  let c15_i32 : BitVec 32 := 15#32
  let v49 : BitVec 1 := Scalar.cmpi .eq arg2 c15_i32
  let v50 : BitVec 32 := Scalar.extui v49
  let c0_i32_21 : BitVec 32 := 0#32
  let v51 : BitVec 1 := Scalar.cmpi .ne v50 c0_i32_21
  v51

def k0_cond4 (i : grid0.Coords) : BitVec 1 :=
  let arg1 : BitVec 32 := BitVec.ofNat 32 (i 1).val
  let c7_i32 : BitVec 32 := 7#32
  let v52 : BitVec 1 := Scalar.cmpi .eq arg1 c7_i32
  let arg2 : BitVec 32 := BitVec.ofNat 32 (i 2).val
  let c15_i32_22 : BitVec 32 := 15#32
  let v53 : BitVec 1 := Scalar.cmpi .eq arg2 c15_i32_22
  let v54 : BitVec 1 := Scalar.andi v52 v53
  let v55 : BitVec 32 := Scalar.extui v54
  let c0_i32_23 : BitVec 32 := 0#32
  let v56 : BitVec 1 := Scalar.cmpi .ne v55 c0_i32_23
  v56

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  inb_S1x512x32_S1x512x32_0_0_0 : ∀ a, (![0, 0, 0] : Fin 3 → Nat) a + S1x512x32.size a ≤ S1x512x32.size a
  h_S1x512x32 : 0 < S1x512x32.numel
  shapeCasts_S1x512x32_S512x32 : S1x512x32.ShapeCasts S512x32
  reduces_S1024x32_S1024 : S1024x32.Reduces [1] S1024
  shapeCasts_S1024_S1024x1 : S1024.ShapeCasts S1024x1
  reduces_S512x32_S512 : S512x32.Reduces [1] S512
  bitsLt_bf16_f32 : FTy.bits .bf16 < FTy.bits .f32
  transposes_S512x32_p1_0_S32x512 : S512x32.Transposes [1, 0] S32x512
  shapeCasts_S512_S1x512 : S512.ShapeCasts S1x512
  broadcasts_S1024x1_S1024x512 : S1024x1.Broadcasts S1024x512
  broadcasts_S1x512_S1024x512 : S1x512.Broadcasts S1024x512
  reduces_S1024x512_S1024 : S1024x512.Reduces [1] S1024
  reduces_S1024x512_S512 : S1024x512.Reduces [0] S512
  shapeCasts_S1024_S1x1024 : S1024.ShapeCasts S1x1024
  h_S1x512 : 0 < S1x512.numel
  shapeCasts_S1x512_S1x512 : S1x512.ShapeCasts S1x512
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  shapeCasts_S4x1x8192_S4x8192 : S4x1x8192.ShapeCasts S4x8192
  reducesTo_S4x8192_S_d0_1 : S4x8192.ReducesTo [0, 1] S_
  h_S_ : 0 < S_.numel
  dot_S1024x32_S32x512_S1024x512_1_0_0_1_n_n_wf : DotDims.WF S1024x32 S32x512 S1024x512 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x32.size a ≤ S4x8192x32.size a
  hwx0_0 : ∀ i : grid0.Coords, EltTy.bits .f32 = 32 ∨ (Rect.block (s := S4x8192x32) S1x1024x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x32.size a ≤ S4x8192x32.size a
  hwx0_1 : ∀ i : grid0.Coords, EltTy.bits .f32 = 32 ∨ (Rect.block (s := S4x8192x32) S1x512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S4x1x8192.size a
  hwx0_2 : ∀ i : grid0.Coords, EltTy.bits .f32 = 32 ∨ (Rect.block (s := S4x1x8192) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

def dot_S1024x32_S32x512_S1024x512_1_0_0_1_n_n : DotDims S1024x32 S32x512 S1024x512 where
  lhsContracting := [1]
  rhsContracting := [0]
  lhsNonContracting := [0]
  rhsNonContracting := [1]
  lhsBatch := []
  rhsBatch := []
  wf := dot_S1024x32_S32x512_S1024x512_1_0_0_1_n_n_wf

abbrev win0_0 : Pipeline.Window sig grid0 :=
  Pipeline.Window.ofSpec (Memref.whole main_arg0) S1x1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S4x8192x32 : Shape := ⟨3, ![4, 8192, 32]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 35
  | .vmem => 0
  | .smem => 0
  | _ => 0

abbrev bufTy : (tb : Table) → Fin (tcTables nBuf tb) → BufTy
  | .hbm, ⟨0, _⟩ => ⟨S4x8192x32, .f32⟩
  | .hbm, ⟨1, _⟩ => ⟨S4x8192x32, .f32⟩
  | .hbm, ⟨2, _⟩ => ⟨S4x8192x32, .f32⟩
  | .hbm, ⟨3, _⟩ => ⟨S_, .f32⟩
  | .hbm, ⟨4, _⟩ => ⟨S4x8192, .f32⟩
  | .hbm, ⟨5, _⟩ => ⟨S4x8192x32, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4x8192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S4x8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S4x8192x32_S4x8192_d2 : S4x8192x32.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S_d0_1 : S4x8192.ReducesTo [0, 1] S_
  reducesTo_S4x8192x8192_S4x8192_d1 : S4x8192x8192.ReducesTo [1] S4x8192
  dot_S4x8192x32_S4x8192x32_S4x8192x8192_2_2_1_1_0_0_wf : DotDims.WF S4x8192x32 S4x8192x32 S4x8192x8192 [2] [2] [1] [1] [0] [0]

variable [Facts₀]

def dot_S4x8192x32_S4x8192x32_S4x8192x8192_2_2_1_1_0_0 : DotDims S4x8192x32 S4x8192x32 S4x8192x8192 where
  lhsContracting := [2]
  rhsContracting := [2]
  lhsNonContracting := [1]
  rhsNonContracting := [1]
  lhsBatch := [0]
  rhsBatch := [0]
  wf := dot_S4x8192x32_S4x8192x32_S4x8192x8192_2_2_1_1_0_0_wf

class Facts : Prop extends Facts₀ where

variable [Facts]
-- ==== Proof.Pieces.lean ====
/-
  What one grid point leaves behind, case by case.

  Every point updates two running minima kept in scratch: the row accumulator (one entry per point of the current
  1024-point tile of the first set) is met with the row minima of the current 1024 × 512 distance tile, and the
  512 entries of the column accumulator that belong to the current tile of the second set are met with the tile's
  column minima; the other entries of the column accumulator keep what they held. A point that starts a row of
  tiles first fills the row accumulator with +∞, the first point of a batch fills both. A point that ends a row of
  tiles copies the row accumulator out, the last point of a batch copies the column accumulator out.
  The five cases of the conditions differ only in which of these happen; each case's contents are read here as
  the same two step functions `rowNext` and `colNext` of the contents the point found.
-/
import proofs.«151113_j5677946765711_2_alg».proof.Proof.Gen.KernelIdeal.Frame
import Idealize.ShloMosaic.Lib.Pipeline.Value
import Idealize.ShloMosaic.Lib.WritesUnit
import Idealize.ShloMosaic.Lib.Tactic

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The row accumulator after a point: what it held met with the row minima of the point's distance tile. -/
def rowNext (acc : Vec F S1x1024 .f32) (x0 : Vec F S1x1024x32 .f32) (x1 : Vec F S1x512x32 .f32) : Vec F S1x1024 .f32 :=
  k0_pay1 acc (k0_pay9 x0 x1)

/-- The 512 entries of the column accumulator the point updates: what they held met with the column minima of the
    point's distance tile. -/
def colTile (i : grid0.Coords) (acc : Vec F S1x8192 .f32) (x0 : Vec F S1x1024x32 .f32) (x1 : Vec F S1x512x32 .f32) : Vec F S1x512 .f32 :=
  k0_pay2 (k0_pay8 x0 x1) (View.ld acc (Rect.unit (s := S1x8192) (k0_off1 i) S1x512.size (k0_off1_inb i)))

/-- The column accumulator after a point: the point's 512 entries updated, the others as they were. -/
def colNext (i : grid0.Coords) (arg8 : Memref sig .tc .vmem S1x8192 .f32) (harg8 : arg8.IsWhole)
    (acc : Vec F S1x8192 .f32) (x0 : Vec F S1x1024x32 .f32) (x1 : Vec F S1x512x32 .f32) : Vec F S1x8192 .f32 :=
  arg8.view.read (Elt F) (arg8.view.writes (Elt F) (harg8.unread acc)
    [⟨Rect.unit (s := S1x8192) (k0_off1 i) S1x512.size (k0_off1_inb i), colTile i acc x0 x1⟩])

variable (c : Dev nD) (i : grid0.Coords) (arg3 : Memref sig .tc .vmem S1x1024x32 .f32) (harg3 : arg3.IsWhole) (arg4 : Memref sig .tc .vmem S1x512x32 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1x1024 .f32) (harg7 : arg7.IsWhole) (arg8 : Memref sig .tc .vmem S1x8192 .f32) (harg8 : arg8.IsWhole)

theorem row_A (hc0 : cond0_0 i) (hc1 : cond0_1 i) (hc2 : ¬cond0_2 i) (hc3 : ¬cond0_3 i) (x0 : Vec F S1x1024x32 .f32) (x1 : Vec F S1x512x32 .f32)  :
    sout0_A_0 c i arg3 harg3 arg4 harg4 arg5 harg5 arg6 harg6 arg7 harg7 arg8 harg8 hc0 hc1 hc2 hc3 x0 x1  = rowNext k0_pay5 x0 x1 := by
  unfold sout0_A_0
  rw [View.read_writes_eq_canon _ _ _ (scover0_A_0 c i arg3 harg3 arg4 harg4 arg5 harg5 arg6 harg6 arg7 harg7 arg8 harg8 hc0 hc1 hc2 hc3 x0 x1 )]
  unfold kernelRun0_A
  dsimp only
  sl_unfold_run_names
  rw [View.canon_cons_unit_zero (S := S1x1024) hz2, View.readCov_unit_zero (S := S1x1024) _ hz2]
  simp only [View.readAt_eq_ld, harg3.read_unread, harg4.read_unread, harg7.read_unread, View.ld_unit_zero (S := S1x1024x32) hz3, View.ld_unit_zero (S := S1x512x32) hz3, View.ld_unit_zero (S := S1x1024) hz2]
  rfl

theorem row_D (hc0 : cond0_0 i) (hc1 : ¬cond0_1 i) (hc2 : ¬cond0_2 i) (hc3 : ¬cond0_3 i) (x0 : Vec F S1x1024x32 .f32) (x1 : Vec F S1x512x32 .f32) (xs1 : Vec F S1x8192 .f32) :
    sout0_D_0 c i arg3 harg3 arg4 harg4 arg5 harg5 arg6 harg6 arg7 harg7 arg8 harg8 hc0 hc1 hc2 hc3 x0 x1 xs1 = rowNext k0_pay5 x0 x1 := by
  unfold sout0_D_0
  rw [View.read_writes_eq_canon _ _ _ (scover0_D_0 c i arg3 harg3 arg4 harg4 arg5 harg5 arg6 harg6 arg7 harg7 arg8 harg8 hc0 hc1 hc2 hc3 x0 x1 xs1)]
  unfold kernelRun0_D
  dsimp only
  sl_unfold_run_names
  rw [View.canon_cons_unit_zero (S := S1x1024) hz2, View.readCov_unit_zero (S := S1x1024) _ hz2]
  simp only [View.readAt_eq_ld, harg3.read_unread, harg4.read_unread, harg7.read_unread, View.ld_unit_zero (S := S1x1024x32) hz3, View.ld_unit_zero (S := S1x512x32) hz3, View.ld_unit_zero (S := S1x1024) hz2]
  rfl

theorem row_B (hc0 : ¬cond0_0 i) (hc1 : ¬cond0_1 i) (hc2 : ¬cond0_2 i) (hc3 : ¬cond0_3 i) (x0 : Vec F S1x1024x32 .f32) (x1 : Vec F S1x512x32 .f32) (xs0 : Vec F S1x1024 .f32) (xs1 : Vec F S1x8192 .f32) :
    sout0_B_0 c i arg3 harg3 arg4 harg4 arg5 harg5 arg6 harg6 arg7 harg7 arg8 harg8 hc0 hc1 hc2 hc3 x0 x1 xs0 xs1 = rowNext xs0 x0 x1 := by
  unfold sout0_B_0
  rw [View.read_writes_eq_canon _ _ _ (scover0_B_0 c i arg3 harg3 arg4 harg4 arg5 harg5 arg6 harg6 arg7 harg7 arg8 harg8 hc0 hc1 hc2 hc3 x0 x1 xs0 xs1)]
  unfold kernelRun0_B
  dsimp only
  sl_unfold_run_names
  rw [View.canon_unit_zero (S := S1x1024) hz2]
  simp only [View.readAt_eq_ld, harg3.read_unread, harg4.read_unread, harg7.read_unread, View.ld_unit_zero (S := S1x1024x32) hz3, View.ld_unit_zero (S := S1x512x32) hz3, View.ld_unit_zero (S := S1x1024) hz2]
  rfl

theorem row_C (hc0 : ¬cond0_0 i) (hc1 : ¬cond0_1 i) (hc2 : cond0_2 i) (hc3 : ¬cond0_3 i) (x0 : Vec F S1x1024x32 .f32) (x1 : Vec F S1x512x32 .f32) (xs0 : Vec F S1x1024 .f32) (xs1 : Vec F S1x8192 .f32) :
    sout0_C_0 c i arg3 harg3 arg4 harg4 arg5 harg5 arg6 harg6 arg7 harg7 arg8 harg8 hc0 hc1 hc2 hc3 x0 x1 xs0 xs1 = rowNext xs0 x0 x1 := by
  unfold sout0_C_0
  rw [View.read_writes_eq_canon _ _ _ (scover0_C_0 c i arg3 harg3 arg4 harg4 arg5 harg5 arg6 harg6 arg7 harg7 arg8 harg8 hc0 hc1 hc2 hc3 x0 x1 xs0 xs1)]
  unfold kernelRun0_C
  dsimp only
  sl_unfold_run_names
  rw [View.canon_unit_zero (S := S1x1024) hz2]
  simp only [View.readAt_eq_ld, harg3.read_unread, harg4.read_unread, harg7.read_unread, View.ld_unit_zero (S := S1x1024x32) hz3, View.ld_unit_zero (S := S1x512x32) hz3, View.ld_unit_zero (S := S1x1024) hz2]
  rfl

theorem row_E (hc0 : ¬cond0_0 i) (hc1 : ¬cond0_1 i) (hc2 : cond0_2 i) (hc3 : cond0_3 i) (x0 : Vec F S1x1024x32 .f32) (x1 : Vec F S1x512x32 .f32) (xs0 : Vec F S1x1024 .f32) (xs1 : Vec F S1x8192 .f32) :
    sout0_E_0 c i arg3 harg3 arg4 harg4 arg5 harg5 arg6 harg6 arg7 harg7 arg8 harg8 hc0 hc1 hc2 hc3 x0 x1 xs0 xs1 = rowNext xs0 x0 x1 := by
  unfold sout0_E_0
  rw [View.read_writes_eq_canon _ _ _ (scover0_E_0 c i arg3 harg3 arg4 harg4 arg5 harg5 arg6 harg6 arg7 harg7 arg8 harg8 hc0 hc1 hc2 hc3 x0 x1 xs0 xs1)]
  unfold kernelRun0_E
  dsimp only
  sl_unfold_run_names
  rw [View.canon_unit_zero (S := S1x1024) hz2]
  simp only [View.readAt_eq_ld, harg3.read_unread, harg4.read_unread, harg7.read_unread, View.ld_unit_zero (S := S1x1024x32) hz3, View.ld_unit_zero (S := S1x512x32) hz3, View.ld_unit_zero (S := S1x1024) hz2]
  rfl

/-- The first point of a batch: the column accumulator is filled with +∞ and the point's 512 entries are then updated. -/
theorem col_A (hc0 : cond0_0 i) (hc1 : cond0_1 i) (hc2 : ¬cond0_2 i) (hc3 : ¬cond0_3 i) (x0 : Vec F S1x1024x32 .f32) (x1 : Vec F S1x512x32 .f32) :
    sout0_A_1 c i arg3 harg3 arg4 harg4 arg5 harg5 arg6 harg6 arg7 harg7 arg8 harg8 hc0 hc1 hc2 hc3 x0 x1 = colNext i arg8 harg8 k0_pay6 x0 x1 := by
  unfold sout0_A_1 colNext colTile
  unfold kernelRun0_A
  dsimp only
  sl_unfold_run_names
  simp only [View.readAt_eq_ld, harg3.read_unread, harg4.read_unread, View.ld_unit_zero (S := S1x1024x32) hz3, View.ld_unit_zero (S := S1x512x32) hz3]
  have hcov : ∀ y : S1x8192.Idx, ∃ p ∈ [(⟨Rect.unit (s := S1x8192) ![0, 0] S1x8192.size inb_S1x8192_S1x8192_0_0, k0_pay6 (F := F)⟩ : View.Piece (Elt F) S1x8192 .f32)], y ∈ p.1.set :=
    fun y => ⟨_, List.mem_singleton_self _, View.mem_set_unit_zero hz2 inb_S1x8192_S1x8192_0_0 y⟩
  rw [View.read_writes_eq_canon arg8.view _ _ hcov, View.canon_unit_zero (S := S1x8192) hz2]
  funext y
  by_cases hy : ∀ a, k0_off1 i a ≤ (y a).val ∧ (y a).val < k0_off1 i a + S1x512.size a
  · have hx : ∀ a, (y a).val = k0_off1 i a + (Rect.unitLocal (s := S1x8192) (off := k0_off1 i) (size := S1x512.size) y hy a).val := fun a => by
      have := hy a; rw [Rect.unitLocal_val]; omega
    rw [View.read_writes_cons_unit_of_mem (s := S1x8192) (off := k0_off1 i) (off' := k0_off1 i) (size := S1x512.size) _ _ (k0_off1_inb i) _ _ y (Rect.unitLocal (s := S1x8192) (off := k0_off1 i) (size := S1x512.size) y hy) rfl hx,
      View.read_writes_cons_unit_of_mem (s := S1x8192) (off := k0_off1 i) (off' := k0_off1 i) (size := S1x512.size) _ _ (k0_off1_inb i) _ _ y (Rect.unitLocal (s := S1x8192) (off := k0_off1 i) (size := S1x512.size) y hy) rfl hx]
  · obtain ⟨a, ha⟩ := not_forall.mp hy
    have ha' : (y a).val < k0_off1 i a ∨ k0_off1 i a + S1x512.size a ≤ (y a).val := by omega
    rw [View.read_writes_cons_unit_of_not_mem (s := S1x8192) (off := k0_off1 i) (off' := k0_off1 i) (size := S1x512.size) _ _ (k0_off1_inb i) _ _ y rfl a ha',
      View.read_writes_cons_unit_of_not_mem (s := S1x8192) (off := k0_off1 i) (off' := k0_off1 i) (size := S1x512.size) _ _ (k0_off1_inb i) _ _ y rfl a ha']
    have hy0 : ∀ a, (y a).val = (![0, 0] : Fin 2 → ℕ) a + (y a).val := fun a => by
      match a with
      | ⟨0, _⟩ => exact (Nat.zero_add _).symm
      | ⟨1, _⟩ => exact (Nat.zero_add _).symm
    rw [View.read_writes_cons_unit_of_mem (s := S1x8192) (off := ![0, 0]) (off' := ![0, 0]) (size := S1x8192.size) _ _ inb_S1x8192_S1x8192_0_0 _ _ y y rfl hy0, View.writes_nil, harg8.read_unread]

theorem col_B (hc0 : ¬cond0_0 i) (hc1 : ¬cond0_1 i) (hc2 : ¬cond0_2 i) (hc3 : ¬cond0_3 i) (x0 : Vec F S1x1024x32 .f32) (x1 : Vec F S1x512x32 .f32) (xs0 : Vec F S1x1024 .f32) (xs1 : Vec F S1x8192 .f32) :
    sout0_B_1 c i arg3 harg3 arg4 harg4 arg5 harg5 arg6 harg6 arg7 harg7 arg8 harg8 hc0 hc1 hc2 hc3 x0 x1 xs0 xs1 = colNext i arg8 harg8 xs1 x0 x1 := by
  unfold sout0_B_1 colNext colTile
  unfold kernelRun0_B
  dsimp only
  sl_unfold_run_names
  simp only [View.readAt_eq_ld, harg3.read_unread, harg4.read_unread, harg8.read_unread, View.ld_unit_zero (S := S1x1024x32) hz3, View.ld_unit_zero (S := S1x512x32) hz3]

theorem col_C (hc0 : ¬cond0_0 i) (hc1 : ¬cond0_1 i) (hc2 : cond0_2 i) (hc3 : ¬cond0_3 i) (x0 : Vec F S1x1024x32 .f32) (x1 : Vec F S1x512x32 .f32) (xs0 : Vec F S1x1024 .f32) (xs1 : Vec F S1x8192 .f32) :
    sout0_C_1 c i arg3 harg3 arg4 harg4 arg5 harg5 arg6 harg6 arg7 harg7 arg8 harg8 hc0 hc1 hc2 hc3 x0 x1 xs0 xs1 = colNext i arg8 harg8 xs1 x0 x1 := by
  unfold sout0_C_1 colNext colTile
  unfold kernelRun0_C
  dsimp only
  sl_unfold_run_names
  simp only [View.readAt_eq_ld, harg3.read_unread, harg4.read_unread, harg8.read_unread, View.ld_unit_zero (S := S1x1024x32) hz3, View.ld_unit_zero (S := S1x512x32) hz3]

theorem col_D (hc0 : cond0_0 i) (hc1 : ¬cond0_1 i) (hc2 : ¬cond0_2 i) (hc3 : ¬cond0_3 i) (x0 : Vec F S1x1024x32 .f32) (x1 : Vec F S1x512x32 .f32) (xs1 : Vec F S1x8192 .f32) :
    sout0_D_1 c i arg3 harg3 arg4 harg4 arg5 harg5 arg6 harg6 arg7 harg7 arg8 harg8 hc0 hc1 hc2 hc3 x0 x1 xs1 = colNext i arg8 harg8 xs1 x0 x1 := by
  unfold sout0_D_1 colNext colTile
  unfold kernelRun0_D
  dsimp only
  sl_unfold_run_names
  simp only [View.readAt_eq_ld, harg3.read_unread, harg4.read_unread, harg8.read_unread, View.ld_unit_zero (S := S1x1024x32) hz3, View.ld_unit_zero (S := S1x512x32) hz3]

theorem col_E (hc0 : ¬cond0_0 i) (hc1 : ¬cond0_1 i) (hc2 : cond0_2 i) (hc3 : cond0_3 i) (x0 : Vec F S1x1024x32 .f32) (x1 : Vec F S1x512x32 .f32) (xs0 : Vec F S1x1024 .f32) (xs1 : Vec F S1x8192 .f32) :
    sout0_E_1 c i arg3 harg3 arg4 harg4 arg5 harg5 arg6 harg6 arg7 harg7 arg8 harg8 hc0 hc1 hc2 hc3 x0 x1 xs0 xs1 = colNext i arg8 harg8 xs1 x0 x1 := by
  unfold sout0_E_1 colNext colTile
  unfold kernelRun0_E
  dsimp only
  sl_unfold_run_names
  simp only [View.readAt_eq_ld, harg3.read_unread, harg4.read_unread, harg8.read_unread, View.ld_unit_zero (S := S1x1024x32) hz3, View.ld_unit_zero (S := S1x512x32) hz3]

theorem out2_C (hc0 : ¬cond0_0 i) (hc1 : ¬cond0_1 i) (hc2 : cond0_2 i) (hc3 : ¬cond0_3 i) (x0 : Vec F S1x1024x32 .f32) (x1 : Vec F S1x512x32 .f32) (xs0 : Vec F S1x1024 .f32) (xs1 : Vec F S1x8192 .f32) :
    out0_C_2 c i arg3 harg3 arg4 harg4 arg5 harg5 arg6 harg6 arg7 harg7 arg8 harg8 hc0 hc1 hc2 hc3 x0 x1 xs0 xs1 = k0_pay3 (rowNext xs0 x0 x1) := by
  unfold out0_C_2
  rw [View.read_writes_eq_canon _ _ _ (cover0_C_2 c i arg3 harg3 arg4 harg4 arg5 harg5 arg6 harg6 arg7 harg7 arg8 harg8 hc0 hc1 hc2 hc3 x0 x1 xs0 xs1)]
  unfold kernelRun0_C
  dsimp only
  sl_unfold_run_names
  rw [View.canon_unit_zero (S := S1x1x1024) hz3, View.readCov_unit_zero (S := S1x1024) _ hz2]
  simp only [View.readAt_eq_ld, harg3.read_unread, harg4.read_unread, harg7.read_unread, View.ld_unit_zero (S := S1x1024x32) hz3, View.ld_unit_zero (S := S1x512x32) hz3, View.ld_unit_zero (S := S1x1024) hz2]
  rfl

theorem out2_E (hc0 : ¬cond0_0 i) (hc1 : ¬cond0_1 i) (hc2 : cond0_2 i) (hc3 : cond0_3 i) (x0 : Vec F S1x1024x32 .f32) (x1 : Vec F S1x512x32 .f32) (xs0 : Vec F S1x1024 .f32) (xs1 : Vec F S1x8192 .f32) :
    out0_E_2 c i arg3 harg3 arg4 harg4 arg5 harg5 arg6 harg6 arg7 harg7 arg8 harg8 hc0 hc1 hc2 hc3 x0 x1 xs0 xs1 = k0_pay3 (rowNext xs0 x0 x1) := by
  unfold out0_E_2
  rw [View.read_writes_eq_canon _ _ _ (cover0_E_2 c i arg3 harg3 arg4 harg4 arg5 harg5 arg6 harg6 arg7 harg7 arg8 harg8 hc0 hc1 hc2 hc3 x0 x1 xs0 xs1)]
  unfold kernelRun0_E
  dsimp only
  sl_unfold_run_names
  rw [View.canon_unit_zero (S := S1x1x1024) hz3, View.readCov_unit_zero (S := S1x1024) _ hz2]
  simp only [View.readAt_eq_ld, harg3.read_unread, harg4.read_unread, harg7.read_unread, View.ld_unit_zero (S := S1x1024x32) hz3, View.ld_unit_zero (S := S1x512x32) hz3, View.ld_unit_zero (S := S1x1024) hz2]
  rfl

theorem out3_E (hc0 : ¬cond0_0 i) (hc1 : ¬cond0_1 i) (hc2 : cond0_2 i) (hc3 : cond0_3 i) (x0 : Vec F S1x1024x32 .f32) (x1 : Vec F S1x512x32 .f32) (xs0 : Vec F S1x1024 .f32) (xs1 : Vec F S1x8192 .f32) :
    out0_E_3 c i arg3 harg3 arg4 harg4 arg5 harg5 arg6 harg6 arg7 harg7 arg8 harg8 hc0 hc1 hc2 hc3 x0 x1 xs0 xs1 = k0_pay4 (colNext i arg8 harg8 xs1 x0 x1) := by
  unfold out0_E_3
  rw [View.read_writes_eq_canon _ _ _ (cover0_E_3 c i arg3 harg3 arg4 harg4 arg5 harg5 arg6 harg6 arg7 harg7 arg8 harg8 hc0 hc1 hc2 hc3 x0 x1 xs0 xs1)]
  unfold kernelRun0_E colNext colTile
  dsimp only
  sl_unfold_run_names
  rw [View.canon_unit_zero (S := S1x1x8192) hz3]
  simp only [View.readAt_eq_ld, harg3.read_unread, harg4.read_unread, harg8.read_unread, View.ld_unit_zero (S := S1x1024x32) hz3, View.ld_unit_zero (S := S1x512x32) hz3, View.ld_unit_zero (S := S1x8192) hz2]

end Cert.KernelIdeal.Pieces

end
-- ==== Proof.Steps.lean ====
/-
  One recurrence for all five cases.

  Whatever the case of the conditions at a point, the row accumulator it leaves is `rowNext` of what it found — +∞
  at the first point of a row of tiles, else what the point before left — and the column accumulator is `colNext`
  of what it found — +∞ at the first point of a batch, else what the point before left. At the last point of a row of
  tiles the row output is the row accumulator laid out [1, 1, 1024]; at the last point of a batch the column output is
  the column accumulator laid out [1, 1, 8192].
-/
import proofs.«151113_j5677946765711_2_alg».proof.Proof.Pieces

noncomputable section

open Idealize.ShloMosaic Idealize.ShloMosaic.TcCoe Idealize.SL.Sem

namespace Cert.KernelIdeal.Steps

open Cert.KernelIdeal Cert.KernelIdeal.Gen Cert.KernelIdeal.Pieces

variable {F : FTy → Type} [FloatOps F]
variable (m : (ℓ : Loc nD τ sig) → Buf (Elt F) ℓ) (c : Dev nD)

/-- What the point before `t` left in the row accumulator. -/
abbrev prevRow (t : Fin cfg0.N) : Vec F S1x1024 .f32 :=
  (outsAt0 m c (t.val - 1) (Nat.lt_of_le_of_lt (Nat.sub_le _ _) t.isLt)).2.2.1

/-- What the point before `t` left in the column accumulator. -/
abbrev prevCol (t : Fin cfg0.N) : Vec F S1x8192 .f32 :=
  (outsAt0 m c (t.val - 1) (Nat.lt_of_le_of_lt (Nat.sub_le _ _) t.isLt)).2.2.2

/-- The row accumulator after point `t`. -/
theorem row_step (t : Fin cfg0.N) :
    (outsAt0 m c t.val t.isLt).2.2.1
      = rowNext (if t.val % 16 = 0 then k0_pay5 else prevRow m c t) (iblk m c 0 t) (iblk m c 1 t) := by
  have hN : cfg0.N = 512 := N_0
  have ht := t.isLt
  by_cases h0 : t.val % 16 = 0
  · by_cases h1 : t.val % 128 = 0
    · have h2 : ¬t.val % 16 = 15 := by omega
      have h3 : ¬t.val % 128 = 127 := by omega
      rw [outsAt0_A m c t h0 h1 h2 h3, if_pos h0]
      dsimp only
      exact row_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t)
    · have h2 : ¬t.val % 16 = 15 := by omega
      have h3 : ¬t.val % 128 = 127 := by omega
      rw [outsAt0_D m c t h0 h1 h2 h3, if_pos h0]
      dsimp only
      exact row_D c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (prevCol m c t)
  · have h1 : ¬t.val % 128 = 0 := by omega
    by_cases h2 : t.val % 16 = 15
    · by_cases h3 : t.val % 128 = 127
      · rw [outsAt0_E m c t h0 h1 h2 h3, if_neg h0]
        dsimp only
        exact row_E c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (prevRow m c t) (prevCol m c t)
      · rw [outsAt0_C m c t h0 h1 h2 h3, if_neg h0]
        dsimp only
        exact row_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (prevRow m c t) (prevCol m c t)
    · have h3 : ¬t.val % 128 = 127 := by omega
      rw [outsAt0_B m c t h0 h1 h2 h3, if_neg h0]
      dsimp only
      exact row_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (prevRow m c t) (prevCol m c t)

/-- The column accumulator after point `t`. -/
theorem col_step (t : Fin cfg0.N) :
    (outsAt0 m c t.val t.isLt).2.2.2
      = colNext (grid0.coords t) scM0_1 (Memref.isWhole_whole _) (if t.val % 128 = 0 then k0_pay6 else prevCol m c t)
          (iblk m c 0 t) (iblk m c 1 t) := by
  have hN : cfg0.N = 512 := N_0
  have ht := t.isLt
  by_cases h0 : t.val % 16 = 0
  · by_cases h1 : t.val % 128 = 0
    · have h2 : ¬t.val % 16 = 15 := by omega
      have h3 : ¬t.val % 128 = 127 := by omega
      rw [outsAt0_A m c t h0 h1 h2 h3, if_pos h1]
      dsimp only
      exact col_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t)
    · have h2 : ¬t.val % 16 = 15 := by omega
      have h3 : ¬t.val % 128 = 127 := by omega
      rw [outsAt0_D m c t h0 h1 h2 h3, if_neg h1]
      dsimp only
      exact col_D c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (prevCol m c t)
  · have h1 : ¬t.val % 128 = 0 := by omega
    by_cases h2 : t.val % 16 = 15
    · by_cases h3 : t.val % 128 = 127
      · rw [outsAt0_E m c t h0 h1 h2 h3, if_neg h1]
        dsimp only
        exact col_E c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (prevRow m c t) (prevCol m c t)
      · rw [outsAt0_C m c t h0 h1 h2 h3, if_neg h1]
        dsimp only
        exact col_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (prevRow m c t) (prevCol m c t)
    · have h3 : ¬t.val % 128 = 127 := by omega
      rw [outsAt0_B m c t h0 h1 h2 h3, if_neg h1]
      dsimp only
      exact col_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (prevRow m c t) (prevCol m c t)

/-- The row output at the last point of a row of tiles: the row accumulator, laid out [1, 1, 1024]. -/
theorem out2_step (t : Fin cfg0.N) (h : t.val % 16 = 15) :
    (outsAt0 m c t.val t.isLt).1 = k0_pay3 (rowNext (prevRow m c t) (iblk m c 0 t) (iblk m c 1 t)) := by
  have hN : cfg0.N = 512 := N_0
  have ht := t.isLt
  by_cases h0 : t.val % 16 = 0
  · by_cases h1 : t.val % 128 = 0
    · have h2 : ¬t.val % 16 = 15 := by omega
      have h3 : ¬t.val % 128 = 127 := by omega
      exact absurd h (by omega)
    · have h2 : ¬t.val % 16 = 15 := by omega
      have h3 : ¬t.val % 128 = 127 := by omega
      exact absurd h (by omega)
  · have h1 : ¬t.val % 128 = 0 := by omega
    by_cases h2 : t.val % 16 = 15
    · by_cases h3 : t.val % 128 = 127
      · rw [outsAt0_E m c t h0 h1 h2 h3]
        dsimp only
        exact out2_E c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (prevRow m c t) (prevCol m c t)
      · rw [outsAt0_C m c t h0 h1 h2 h3]
        dsimp only
        exact out2_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (prevRow m c t) (prevCol m c t)
    · have h3 : ¬t.val % 128 = 127 := by omega
      exact absurd h (by omega)

/-- The column output at the last point of a batch: the column accumulator, laid out [1, 1, 8192]. -/
theorem out3_step (t : Fin cfg0.N) (h : t.val % 128 = 127) :
    (outsAt0 m c t.val t.isLt).2.1
      = k0_pay4 (colNext (grid0.coords t) scM0_1 (Memref.isWhole_whole _) (prevCol m c t) (iblk m c 0 t) (iblk m c 1 t)) := by
  have hN : cfg0.N = 512 := N_0
  have ht := t.isLt
  by_cases h0 : t.val % 16 = 0
  · by_cases h1 : t.val % 128 = 0
    · have h2 : ¬t.val % 16 = 15 := by omega
      have h3 : ¬t.val % 128 = 127 := by omega
      exact absurd h (by omega)
    · have h2 : ¬t.val % 16 = 15 := by omega
      have h3 : ¬t.val % 128 = 127 := by omega
      exact absurd h (by omega)
  · have h1 : ¬t.val % 128 = 0 := by omega
    by_cases h2 : t.val % 16 = 15
    · by_cases h3 : t.val % 128 = 127
      · rw [outsAt0_E m c t h0 h1 h2 h3]
        dsimp only
        exact out3_E c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (prevRow m c t) (prevCol m c t)
      · exact absurd h (by omega)
    · have h3 : ¬t.val % 128 = 127 := by omega
      exact absurd h (by omega)

end Cert.KernelIdeal.Steps

end
-- ==== Proof.LibBlockedInf.lean ====
/-
  A greatest lower bound over `Fin N` taken block by block.

  For a function `g` on `Fin N` with values in a meet-semilattice with a top, `(below N k).inf g` is the meet of `g`
  over the indices smaller than `k`: the top for `k = 0`, the meet over everything once `N ≤ k`, and going from
  `k·bs` to `(k+1)·bs` meets it with the meet over the `k`-th block of `bs` consecutive indices. This is the
  arithmetic of a running minimum that visits one tile of an axis per step. In a linear order the fold of `min`
  from the top is this meet.
-/
import Mathlib.Data.Finset.Lattice.Fold
import Mathlib.Data.Fintype.Basic
import Mathlib.Order.Lattice
import Mathlib.Tactic.Ring
import Mathlib.Tactic.Linarith

namespace BlockedInf

variable {α : Type*}

/-- The indices of `Fin N` smaller than `k`. -/
def below (N k : ℕ) : Finset (Fin N) := Finset.univ.filter fun c => c.val < k

theorem mem_below {N k : ℕ} (c : Fin N) : c ∈ below N k ↔ c.val < k := by
  simp [below]

theorem below_zero (N : ℕ) : below N 0 = ∅ := by
  ext c; simp [mem_below]

theorem below_of_le {N k : ℕ} (h : N ≤ k) : below N k = Finset.univ := by
  ext c; simp only [mem_below, Finset.mem_univ, iff_true]; exact lt_of_lt_of_le c.isLt h

/-- The `q`-th index of the `k`-th block of `bs` consecutive indices. -/
def blockIdx (N bs k : ℕ) (h : (k + 1) * bs ≤ N) (q : Fin bs) : Fin N :=
  ⟨k * bs + q.val, by have := q.isLt; have : (k + 1) * bs = k * bs + bs := by ring
                      omega⟩

@[simp] theorem blockIdx_val (N bs k : ℕ) (h : (k + 1) * bs ≤ N) (q : Fin bs) :
    (blockIdx N bs k h q).val = k * bs + q.val := rfl

/-- The indices below `(k+1)·bs` are those below `k·bs` together with the `k`-th block. -/
theorem below_succ_block (N bs k : ℕ) (h : (k + 1) * bs ≤ N) :
    below N ((k + 1) * bs) = below N (k * bs) ∪ Finset.univ.image (blockIdx N bs k h) := by
  have e : (k + 1) * bs = k * bs + bs := by ring
  ext c
  simp only [mem_below, Finset.mem_union, Finset.mem_image, Finset.mem_univ, true_and]
  constructor
  · intro hc
    by_cases hlt : c.val < k * bs
    · exact Or.inl hlt
    · exact Or.inr ⟨⟨c.val - k * bs, by omega⟩, Fin.ext (by simp only [blockIdx_val]; omega)⟩
  · rintro (hc | ⟨q, rfl⟩)
    · omega
    · have := q.isLt; simp only [blockIdx_val]; omega

variable [SemilatticeInf α] [OrderTop α]

theorem inf_below_zero (N : ℕ) (g : Fin N → α) : (below N 0).inf g = ⊤ := by
  rw [below_zero, Finset.inf_empty]

theorem inf_below_of_le {N k : ℕ} (h : N ≤ k) (g : Fin N → α) : (below N k).inf g = Finset.univ.inf g := by
  rw [below_of_le h]

/-- One step of a running meet: the meet below `(k+1)·bs` is the meet below `k·bs` met with the meet over block `k`. -/
theorem inf_below_succ_block (N bs k : ℕ) (h : (k + 1) * bs ≤ N) (g : Fin N → α) :
    (below N ((k + 1) * bs)).inf g
      = (below N (k * bs)).inf g ⊓ (Finset.univ : Finset (Fin bs)).inf fun q => g (blockIdx N bs k h q) := by
  classical
  rw [below_succ_block N bs k h, Finset.inf_union, Finset.inf_image]
  rfl

end BlockedInf

/-- In a linear order with a top, folding `min` from the top over a finite set is the set's greatest lower bound. -/
theorem Finset.fold_min_top_eq_inf {α ι : Type*} [LinearOrder α] [OrderTop α] (s : Finset ι) (f : ι → α) :
    s.fold min ⊤ f = s.inf f := by
  classical
  induction s using Finset.induction_on with
  | empty => simp
  | insert a s ha ih => rw [Finset.fold_insert ha, Finset.inf_insert, ih]
-- ==== Proof.Spec.lean ====
/-
  The two directed nearest-neighbour distances between two point sets, as functions of the arrays.

  `P` and `T` hold four batches of 8192 points in dimension 32. For a point `n` of `P` and a point `m` of `T` in one
  batch the distance is the square root of `|P n|² + |T m|² − 2·⟨P n, T m⟩` clamped below at zero; `rowMin` is its
  minimum over the points of `T`, `colMin` its minimum over the points of `P`. Both programs of the certificate
  compute these two tables and then take the same mean of each and add the means.
  The running minima a tiled traversal holds are written with `BlockedInf.below`: the minimum over the
  points of index smaller than a bound.
-/
import Idealize.ShloMosaic.Lib.ValueIdx
import Idealize.ShloMosaic.PureOps.Ideal.Laws
import proofs.«151113_j5677946765711_2_alg».proof.Proof.LibBlockedInf

noncomputable section

namespace Cert.Chamfer

open Idealize.ShloMosaic Idealize.ShloMosaic.ValueIdx

/-- A point set: four batches of 8192 points in dimension 32, entries extended reals. -/
abbrev Pts : Type := (⟨3, ![4, 8192, 32]⟩ : Shape).Idx → EReal

/-- The factor 2 of the cross term, as the float word both programs write. -/
abbrev two : EReal := Ideal.ofBits .f32 0x40000000#32

/-- The squared norm of point `n` of batch `b`. -/
def sq (P : Pts) (b : Fin 4) (n : Fin 8192) : EReal := ∑ d : Fin 32, P (ix3 b n d) * P (ix3 b n d)

/-- The inner product of point `n` of `P` with point `m` of `T`, in batch `b`. -/
def dot (P T : Pts) (b : Fin 4) (n m : Fin 8192) : EReal := ∑ d : Fin 32, P (ix3 b n d) * T (ix3 b m d)

/-- The distance from point `n` of `P` to point `m` of `T`: the root of the clamped squared distance. -/
def dist (P T : Pts) (b : Fin 4) (n m : Fin 8192) : EReal :=
  Ideal.sqrt (max (sq P b n + sq T b m - two * dot P T b n m) 0)

/-- The distance from point `n` of `P` to the nearest point of `T`. -/
def rowMin (P T : Pts) (b : Fin 4) (n : Fin 8192) : EReal := Finset.univ.inf fun m => dist P T b n m

/-- The distance from point `m` of `T` to the nearest point of `P`. -/
def colMin (P T : Pts) (b : Fin 4) (m : Fin 8192) : EReal := Finset.univ.inf fun n => dist P T b n m

/-- The distance from point `n` of `P` to the nearest of the first `k` points of `T`. -/
def rowMinBelow (P T : Pts) (b : Fin 4) (n : Fin 8192) (k : ℕ) : EReal :=
  (BlockedInf.below 8192 k).inf fun m => dist P T b n m

/-- The distance from point `m` of `T` to the nearest of the first `k` points of `P`. -/
def colMinBelow (P T : Pts) (b : Fin 4) (m : Fin 8192) (k : ℕ) : EReal :=
  (BlockedInf.below 8192 k).inf fun n => dist P T b n m

theorem rowMinBelow_zero (P T : Pts) (b : Fin 4) (n : Fin 8192) : rowMinBelow P T b n 0 = ⊤ :=
  BlockedInf.inf_below_zero _ _

theorem colMinBelow_zero (P T : Pts) (b : Fin 4) (m : Fin 8192) : colMinBelow P T b m 0 = ⊤ :=
  BlockedInf.inf_below_zero _ _

theorem rowMinBelow_all (P T : Pts) (b : Fin 4) (n : Fin 8192) : rowMinBelow P T b n 8192 = rowMin P T b n :=
  BlockedInf.inf_below_of_le (le_refl _) _

theorem colMinBelow_all (P T : Pts) (b : Fin 4) (m : Fin 8192) : colMinBelow P T b m 8192 = colMin P T b m :=
  BlockedInf.inf_below_of_le (le_refl _) _

/-- Point `q` of the `k`-th tile of 512 points. -/
abbrev tile512 (k : Fin 16) (q : Fin 512) : Fin 8192 := ⟨k.val * 512 + q.val, by omega⟩

/-- Point `p` of the `k`-th tile of 1024 points. -/
abbrev tile1024 (k : Fin 8) (p : Fin 1024) : Fin 8192 := ⟨k.val * 1024 + p.val, by omega⟩

/-- Visiting the `k`-th tile of 512 points of `T`: the running minimum meets the tile's minimum. -/
theorem rowMinBelow_succ (P T : Pts) (b : Fin 4) (n : Fin 8192) (k : Fin 16) :
    rowMinBelow P T b n ((k.val + 1) * 512)
      = min (rowMinBelow P T b n (k.val * 512)) (Finset.univ.inf fun q : Fin 512 => dist P T b n (tile512 k q)) :=
  BlockedInf.inf_below_succ_block 8192 512 k.val (by omega) _

/-- Visiting the `k`-th tile of 1024 points of `P`: the running minimum meets the tile's minimum. -/
theorem colMinBelow_succ (P T : Pts) (b : Fin 4) (m : Fin 8192) (k : Fin 8) :
    colMinBelow P T b m ((k.val + 1) * 1024)
      = min (colMinBelow P T b m (k.val * 1024)) (Finset.univ.inf fun p : Fin 1024 => dist P T b (tile1024 k p) m) :=
  BlockedInf.inf_below_succ_block 8192 1024 k.val (by omega) _

/-- The table of nearest-neighbour distances of the first set's points, laid out [4, 8192]. -/
def rowTable (P T : Pts) : FVec Ideal ⟨2, ![4, 8192]⟩ .f32 := fun j => rowMin P T (j 0) (j 1)

/-- The table of nearest-neighbour distances of the second set's points, laid out [4, 8192]. -/
def colTable (P T : Pts) : FVec Ideal ⟨2, ![4, 8192]⟩ .f32 := fun j => colMin P T (j 0) (j 1)

/-- The first table with a unit middle axis, [4, 1, 8192]: the layout a tiled traversal writes it in. -/
def rowOut (P T : Pts) : FVec Ideal ⟨3, ![4, 1, 8192]⟩ .f32 := fun j => rowMin P T (j 0) (j 2)

/-- The second table with a unit middle axis, [4, 1, 8192]. -/
def colOut (P T : Pts) : FVec Ideal ⟨3, ![4, 1, 8192]⟩ .f32 := fun j => colMin P T (j 0) (j 2)

/-- The mean of each of two [4, 8192] tables — the sum from the zero word over all entries, divided by 32768 —,
    added. Both programs end with these operations on their two tables of minima. -/
def meanSum (h : Shape.ReducesTo (⟨2, ![4, 8192]⟩ : Shape) [0, 1] (⟨0, ![]⟩ : Shape)) (hS : 0 < (⟨0, ![]⟩ : Shape).numel)
    (r c : FVec Ideal ⟨2, ![4, 8192]⟩ .f32) : FVec Ideal ⟨0, ![]⟩ .f32 :=
  addf (Host.divf (Host.reduceAdd (F := Ideal) r (constant (F := Ideal) ⟨0, ![]⟩ .f32 0x00000000#32) h hS)
        (constant (F := Ideal) ⟨0, ![]⟩ .f32 0x47000000#32))
    (Host.divf (Host.reduceAdd (F := Ideal) c (constant (F := Ideal) ⟨0, ![]⟩ .f32 0x00000000#32) h hS)
        (constant (F := Ideal) ⟨0, ![]⟩ .f32 0x47000000#32))

end Cert.Chamfer

end
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.LibMinForms.lean ====
/-
  Minima along the rows and along the columns of a matrix, read at an index.

  A float minimum of a matrix `[a, b]` along its second axis, started from the word of +∞, is at `i` the greatest lower
  bound of row `i`; along its first axis it is at `j` the greatest lower bound of column `j`. The word of +∞ is the top
  of the extended reals, so the fold of `min` from it over the reduced coordinates is that bound. Every index is written
  by its coordinates.
-/
import Idealize.ShloMosaic.PureOps.Ideal.Laws
import Idealize.ShloMosaic.Lib.ValueIdx
import proofs.«151113_j5677946765711_2_alg».proof.Proof.LibBlockedInf

namespace Cert.MinForms

open Idealize.ShloMosaic Idealize.ShloMosaic.ValueIdx

/-- The float word of +∞ denotes the top of the extended reals. -/
theorem ofBits_top_f32 : Ideal.ofBits .f32 0x7F800000#32 = (⊤ : EReal) := by simp [Ideal.ofBits, Ideal.ieee]

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- The index of the matrix that reduces to `j` along the first axis and has `k` there is `(k, j)`. -/
theorem lift_col {a b : ℕ} (h : (⟨2, ![a, b]⟩ : Shape).Reduces [0] ⟨1, ![b]⟩) (j : Fin b)
    (k : Fin ((⟨2, ![a, b]⟩ : Shape).size 0)) : h.lift (ix1 j) k = ix2 (⟨k.val, k.isLt⟩ : Fin a) j := by
  funext d; apply Fin.ext
  match d with
  | ⟨0, _⟩ => rfl
  | ⟨1, _⟩ => rfl

/-- A float minimum along the rows, from the word of +∞, at `i`: the greatest lower bound of row `i`. -/
theorem multiReduction_min_rows {a b : ℕ} (src : FVec Ideal ⟨2, ![a, b]⟩ .f32)
    (h : (⟨2, ![a, b]⟩ : Shape).Reduces [1] ⟨1, ![a]⟩) (i : Fin a) :
    multiReduction .minimumf [1] ⟨1, ![a]⟩ src 0x7F800000#32 h (.inl rfl) rfl (ix1 i)
      = (Finset.univ : Finset (Fin b)).inf fun k => src (ix2 i k) := by
  refine (multiReduction_minimumf_eq_fold src 0x7F800000#32 h (.inl rfl) rfl (ix1 i)).trans ?_
  refine (h.fold_filter_drop_single _ _ src (ix1 i)).trans ?_
  show Finset.fold (min : EReal → EReal → EReal) (Ideal.ofBits .f32 0x7F800000#32) _ _ = _
  rw [ofBits_top_f32, Finset.fold_min_top_eq_inf]
  exact Finset.inf_congr rfl fun k _ => congrArg src (lift_row h i k)

/-- A float minimum along the columns, from the word of +∞, at `j`: the greatest lower bound of column `j`. -/
theorem multiReduction_min_cols {a b : ℕ} (src : FVec Ideal ⟨2, ![a, b]⟩ .f32)
    (h : (⟨2, ![a, b]⟩ : Shape).Reduces [0] ⟨1, ![b]⟩) (j : Fin b) :
    multiReduction .minimumf [0] ⟨1, ![b]⟩ src 0x7F800000#32 h (.inl rfl) rfl (ix1 j)
      = (Finset.univ : Finset (Fin a)).inf fun k => src (ix2 k j) := by
  refine (multiReduction_minimumf_eq_fold src 0x7F800000#32 h (.inl rfl) rfl (ix1 j)).trans ?_
  refine (h.fold_filter_drop_single _ _ src (ix1 j)).trans ?_
  show Finset.fold (min : EReal → EReal → EReal) (Ideal.ofBits .f32 0x7F800000#32) _ _ = _
  rw [ofBits_top_f32, Finset.fold_min_top_eq_inf]
  exact Finset.inf_congr rfl fun k _ => congrArg src (lift_col h j k)

end Cert.MinForms
-- ==== Proof.Tile.lean ====
/-
  The arithmetic of one grid point, read entry by entry.

  A point holds a block `x0` of 1024 points of the first set and a block `x1` of 512 points of the second, both in
  dimension 32. Its distance tile has at `(p, q)` the root of `|x0 p|² + |x1 q|² − 2·⟨x0 p, x1 q⟩` clamped below at
  zero (`tdist`): the squared norms are row sums of the squared blocks, the inner products a matrix product of the
  first block with the transposed second (the narrowing of both to a shorter float format before the product is the
  identity on extended reals). The tile's row minima and column minima are greatest lower bounds over its 512
  columns and its 1024 rows.
-/
import proofs.«151113_j5677946765711_2_alg».proof.Proof.Gen.KernelIdeal.Skeleton
import proofs.«151113_j5677946765711_2_alg».proof.Proof.Spec
import proofs.«151113_j5677946765711_2_alg».proof.Proof.LibColumnForms
import proofs.«151113_j5677946765711_2_alg».proof.Proof.LibRowForms
import proofs.«151113_j5677946765711_2_alg».proof.Proof.LibMinForms
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx Cert.KernelIdeal Cert.KernelIdeal.Gen Cert.Chamfer

/-- The contraction record of the tile's matrix product: [1024, 32] times [32, 512]. -/
abbrev D : DotDims S1024x32 S32x512 S1024x512 := dot_S1024x32_S32x512_S1024x512_1_0_0_1_n_n

/-- The product of a [1024, 32] matrix with a [32, 512] matrix into the zero matrix, at `(p, q)`: the sum over the
    32 contracted coordinates. -/
theorem matmul_zero_apply (l : FVec Ideal S1024x32 .bf16) (r : FVec Ideal S32x512 .bf16) (p : Fin 1024) (q : Fin 512) :
    matmul D none l r (constant S1024x512 .f32 0x00000000#32) (ix2 p q) = ∑ k : Fin 32, l (ix2 p k) * r (ix2 k q) := by
  show FloatOps.matmul D none l r (constant S1024x512 .f32 0x00000000#32) (ix2 p q) = _
  rw [Ideal.matmul_constant_zero_apply, ← Equiv.sum_comp (contrEquiv1 D 32 rfl rfl).symm]
  refine Finset.sum_congr rfl fun k _ => ?_
  have hk := contrEquiv1_symm_val D 32 rfl rfl k
  have el : D.lhsIdx (ix2 p q) ((contrEquiv1 D 32 rfl rfl).symm k) = ix2 p k := funext fun a => Fin.ext (by
    match a with
    | ⟨0, _⟩ =>
      show (D.lhsIdx (ix2 p q) _ 0).val = p.val
      unfold DotDims.lhsIdx
      rw [dif_neg (show ¬(0 : Fin S1024x32.rank) ∈ D.lhsBatch by decide), dif_pos (show (0 : Fin S1024x32.rank) ∈ D.lhsNonContracting by decide)]
      rfl
    | ⟨1, _⟩ => exact (D.lhsIdx_val_of_single rfl _ _).trans hk)
  have er : D.rhsIdx (ix2 p q) ((contrEquiv1 D 32 rfl rfl).symm k) = ix2 k q := funext fun a => Fin.ext (by
    match a with
    | ⟨0, _⟩ => exact (D.rhsIdx_val_of_single rfl _ _).trans hk
    | ⟨1, _⟩ =>
      show (D.rhsIdx (ix2 p q) _ 1).val = q.val
      unfold DotDims.rhsIdx
      rw [dif_neg (show ¬(1 : Fin S32x512.rank) ∈ D.rhsBatch by decide), dif_pos (show (1 : Fin S32x512.rank) ∈ D.rhsNonContracting by decide)]
      rfl)
  rw [el, er]

variable (x0 : Vec Ideal S1x1024x32 .f32) (x1 : Vec Ideal S1x512x32 .f32)

/-- The distance from point `p` of the first block to point `q` of the second. -/
def tdist (p : Fin 1024) (q : Fin 512) : EReal :=
  Ideal.sqrt (max ((∑ d : Fin 32, x0 (ix3 0 p d) * x0 (ix3 0 p d)) + (∑ d : Fin 32, x1 (ix3 0 q d) * x1 (ix3 0 q d))
    - two * ∑ d : Fin 32, x0 (ix3 0 p d) * x1 (ix3 0 q d)) 0)

/-- The point's distance tile at `(p, q)`. -/
theorem pay7_apply (p : Fin 1024) (q : Fin 512) : k0_pay7 x0 x1 (ix2 p q) = tdist x0 x1 p q := by
  unfold k0_pay7 tdist
  dsimp only
  refine congrArg Ideal.sqrt (congrArg₂ max (congrArg₂ (· - ·) (congrArg₂ (· + ·) ?_ ?_) (congrArg₂ (· * ·) (rfl : _ = two) ?_)) ?_)
  · refine (Cert.ColumnForms.broadcastTo_a1_ab_apply _ _ p q).trans ((Cert.ColumnForms.shapeCast_a_a1_apply _ _ p 0).trans
      ((Cert.RowForms.multiReduction_add_rows _ _ p).trans (Finset.sum_congr rfl fun d _ => ?_)))
    show shapeCast S1024x32 x0 _ (ix2 p d) * shapeCast S1024x32 x0 _ (ix2 p d) = _
    rw [shapeCast_1ab_ab_apply]
  · refine (broadcastTo_1b_ab_apply _ _ p q).trans ((shapeCast_a_1a_apply _ _ 0 q).trans
      ((Cert.RowForms.multiReduction_add_rows _ _ q).trans (Finset.sum_congr rfl fun d _ => ?_)))
    show shapeCast S512x32 x1 _ (ix2 q d) * shapeCast S512x32 x1 _ (ix2 q d) = _
    rw [shapeCast_1ab_ab_apply]
  · refine (matmul_zero_apply _ _ p q).trans (Finset.sum_congr rfl fun d _ => ?_)
    show shapeCast S1024x32 x0 _ (ix2 p d) * transpose S32x512 [1, 0] _ _ (ix2 d q) = _
    rw [shapeCast_1ab_ab_apply, transpose_ix2_apply]
    show _ * shapeCast S512x32 x1 _ (ix2 q d) = _
    rw [shapeCast_1ab_ab_apply]
  · exact Ideal.ofBits_zero_f32

/-- The row minima of the tile, laid out [1, 1024]: at `p` the nearest of the block's 512 points of the second set. -/
theorem pay9_apply (p : Fin 1024) :
    k0_pay9 x0 x1 (ix2 0 p) = (Finset.univ : Finset (Fin 512)).inf fun q => tdist x0 x1 p q := by
  unfold k0_pay9
  dsimp only
  refine (shapeCast_a_1a_apply _ _ 0 p).trans ((Cert.MinForms.multiReduction_min_rows _ _ p).trans ?_)
  exact Finset.inf_congr rfl fun q _ => pay7_apply x0 x1 p q

/-- The column minima of the tile: at `q` the nearest of the block's 1024 points of the first set. -/
theorem pay8_apply (q : Fin 512) :
    k0_pay8 x0 x1 (ix1 q) = (Finset.univ : Finset (Fin 1024)).inf fun p => tdist x0 x1 p q := by
  unfold k0_pay8
  dsimp only
  refine (Cert.MinForms.multiReduction_min_cols _ _ q).trans ?_
  exact Finset.inf_congr rfl fun p _ => pay7_apply x0 x1 p q

/-- When the blocks are rows `n·1024 + p` of `P` and rows `m·512 + q` of `T` in batch `b`, the tile's distances are
    the point sets' distances. -/
theorem tdist_eq (P T : Pts) (b : Fin 4) (n : Fin 8) (m : Fin 16)
    (h0 : ∀ (p : Fin 1024) (d : Fin 32), x0 (ix3 0 p d) = P (ix3 b (tile1024 n p) d))
    (h1 : ∀ (q : Fin 512) (d : Fin 32), x1 (ix3 0 q d) = T (ix3 b (tile512 m q) d))
    (p : Fin 1024) (q : Fin 512) : tdist x0 x1 p q = dist P T b (tile1024 n p) (tile512 m q) := by
  unfold tdist Cert.Chamfer.dist Cert.Chamfer.sq Cert.Chamfer.dot
  simp only [h0, h1]

end Cert.KernelIdeal.Tile

end
-- ==== Proof.StepValue.lean ====
/-
  The two step functions read entry by entry on extended reals.

  `rowNext` meets each entry of the row accumulator with the nearest of the point's 512 points of the second set;
  `colNext` meets each of the point's 512 entries of the column accumulator with the nearest of the point's 1024 points
  of the first set and leaves every other entry alone. The +∞ fills are the top of the extended reals, and the two
  outputs are the accumulators with a unit axis put in front.
-/
import proofs.«151113_j5677946765711_2_alg».proof.Proof.Pieces
import proofs.«151113_j5677946765711_2_alg».proof.Proof.Tile

noncomputable section

open Idealize.ShloMosaic Idealize.ShloMosaic.TcCoe Idealize.SL.Sem Idealize.ShloMosaic.ValueIdx

namespace Cert.KernelIdeal.StepValue

open Cert.KernelIdeal Cert.KernelIdeal.Gen Cert.KernelIdeal.Pieces Cert.KernelIdeal.Tile

/-- The row accumulator's +∞ fill. -/
theorem pay5_apply (p : Fin 1024) : k0_pay5 (F := Ideal) (ix2 0 p) = (⊤ : EReal) := by
  unfold k0_pay5
  rw [shapeCast_self]
  exact Cert.MinForms.ofBits_top_f32

/-- The column accumulator's +∞ fill. -/
theorem pay6_apply (q : Fin 8192) : k0_pay6 (F := Ideal) (ix2 0 q) = (⊤ : EReal) := by
  unfold k0_pay6
  rw [shapeCast_self]
  exact Cert.MinForms.ofBits_top_f32

/-- The row output: the row accumulator with a unit axis in front. -/
theorem pay3_apply (v : Vec Ideal S1x1024 .f32) (p : Fin 1024) : k0_pay3 v (ix3 0 0 p) = v (ix2 0 p) := by
  unfold k0_pay3
  exact shapeCast_ab_1ab_apply _ _ 0 0 p

/-- The column output: the column accumulator with a unit axis in front. -/
theorem pay4_apply (v : Vec Ideal S1x8192 .f32) (q : Fin 8192) : k0_pay4 v (ix3 0 0 q) = v (ix2 0 q) := by
  unfold k0_pay4
  exact shapeCast_ab_1ab_apply _ _ 0 0 q

variable (x0 : Vec Ideal S1x1024x32 .f32) (x1 : Vec Ideal S1x512x32 .f32)

/-- An entry of the row accumulator after a point. -/
theorem rowNext_apply (acc : Vec Ideal S1x1024 .f32) (p : Fin 1024) :
    rowNext acc x0 x1 (ix2 0 p)
      = min (acc (ix2 0 p)) ((Finset.univ : Finset (Fin 512)).inf fun q => tdist x0 x1 p q) := by
  unfold rowNext k0_pay1
  rw [shapeCast_self]
  exact congrArg₂ min rfl (pay9_apply x0 x1 p)

/-- An entry of the column accumulator the point updates: entry `o + q` when the point's entries start at `o`. -/
theorem colNext_apply_in (i : grid0.Coords) (arg8 : Memref sig .tc .vmem S1x8192 .f32) (harg8 : arg8.IsWhole)
    (acc : Vec Ideal S1x8192 .f32) (o : ℕ) (ho : k0_off1 i = ![0, o]) (q : Fin 512) (hq : o + q.val < 8192) :
    colNext i arg8 harg8 acc x0 x1 (ix2 0 (⟨o + q.val, hq⟩ : Fin 8192))
      = min (acc (ix2 0 (⟨o + q.val, hq⟩ : Fin 8192))) ((Finset.univ : Finset (Fin 1024)).inf fun p => tdist x0 x1 p q) := by
  unfold colNext
  rw [View.read_writes_cons_unit_of_mem (s := S1x8192) (off := k0_off1 i) (off' := ![0, o]) (size := S1x512.size) _ _ (k0_off1_inb i) _ _ (ix2 0 (⟨o + q.val, hq⟩ : Fin 8192)) (ix2 (0 : Fin 1) q) ho
    (fun a => by match a with | ⟨0, _⟩ => rfl | ⟨1, _⟩ => rfl)]
  unfold colTile k0_pay2
  rw [shapeCast_self]
  refine congrArg₂ min ?_ ((shapeCast_a_1a_apply _ _ 0 q).trans (pay8_apply x0 x1 q))
  show acc ((Rect.unit (s := S1x8192) (k0_off1 i) S1x512.size (k0_off1_inb i)).emb (ix2 (0 : Fin 1) q)) = _
  refine congrArg acc (funext fun a => Fin.ext ?_)
  match a with
  | ⟨0, _⟩ => show k0_off1 i 0 + 1 * 0 = 0; rw [ho]; rfl
  | ⟨1, _⟩ => show k0_off1 i 1 + 1 * q.val = o + q.val; rw [ho]; show o + 1 * q.val = _; omega

/-- An entry of the column accumulator outside the point's 512: as it was. -/
theorem colNext_apply_out (i : grid0.Coords) (arg8 : Memref sig .tc .vmem S1x8192 .f32) (harg8 : arg8.IsWhole)
    (acc : Vec Ideal S1x8192 .f32) (o : ℕ) (ho : k0_off1 i = ![0, o]) (j : Fin 8192) (hj : j.val < o ∨ o + 512 ≤ j.val) :
    colNext i arg8 harg8 acc x0 x1 (ix2 0 j) = acc (ix2 0 j) := by
  unfold colNext
  rw [View.read_writes_cons_unit_of_not_mem (s := S1x8192) (off := k0_off1 i) (off' := ![0, o]) (size := S1x512.size) _ _ (k0_off1_inb i) _ _ (ix2 0 j) ho 1 (by exact hj), View.writes_nil,
    harg8.read_unread]

end Cert.KernelIdeal.StepValue

end
-- ==== Proof.Invariant.lean ====
/-
  What the two accumulators hold after every grid point.

  Point `k` of the grid is batch `k / 128`, tile `k / 16 mod 8` of 1024 points of the first set and tile `k mod 16`
  of 512 points of the second; the points are visited in this order. After point `k` the row accumulator holds, for
  each of the current 1024 points of the first set, its distance to the nearest of the first `(k mod 16 + 1)·512`
  points of the second set; the column accumulator holds, for each point of the second set, its distance to the
  nearest of the points of the first set visited so far in the batch: those of the tiles up to the current one if
  the point's own tile has been reached in the current row of tiles, those of the earlier tiles otherwise. Both by
  induction on the point: a visit of one tile meets the running minimum with the tile's minimum. At the last point
  of a row of tiles the row output is therefore the minimum over all 8192 points, and at the last point of a batch
  so is the column output.
-/
import proofs.«151113_j5677946765711_2_alg».proof.Proof.Steps
import proofs.«151113_j5677946765711_2_alg».proof.Proof.StepValue

noncomputable section

open Idealize.ShloMosaic Idealize.ShloMosaic.TcCoe Idealize.SL.Sem Idealize.ShloMosaic.ValueIdx

namespace Cert.KernelIdeal.Invariant

open Cert.KernelIdeal Cert.KernelIdeal.Gen Cert.KernelIdeal.Pieces Cert.KernelIdeal.Steps Cert.KernelIdeal.StepValue
  Cert.KernelIdeal.Tile Cert.Chamfer

variable (m : (ℓ : Loc nD τ sig) → Buf (Elt Ideal) ℓ) (c : Dev nD)

/-- The first point set, as the region finds it. -/
abbrev P : Pts := V m c main_arg0
/-- The second point set, as the region finds it. -/
abbrev T : Pts := V m c main_arg1

/-- The batch of grid point `k`. -/
def bOf (k : ℕ) : Fin 4 := ⟨k / 128 % 4, Nat.mod_lt _ (by decide)⟩
/-- The tile of the first set at grid point `k`. -/
def nOf (k : ℕ) : Fin 8 := ⟨k / 16 % 8, Nat.mod_lt _ (by decide)⟩
/-- The tile of the second set at grid point `k`. -/
def mOf (k : ℕ) : Fin 16 := ⟨k % 16, Nat.mod_lt _ (by decide)⟩

/-- The block of the first set a point holds: batch, tile, all 32 coordinates. -/
theorem idx0 : ∀ t : Fin cfg0.N, win0_0.index t (0 : Fin 3) = t.val / 128 ∧ win0_0.index t (1 : Fin 3) = t.val / 16 % 8
    ∧ win0_0.index t (2 : Fin 3) = 0 :=
  (by decide +kernel : ∀ t : Fin grid0.N, _)

/-- The block of the second set a point holds. -/
theorem idx1 : ∀ t : Fin cfg0.N, win0_1.index t (0 : Fin 3) = t.val / 128 ∧ win0_1.index t (1 : Fin 3) = t.val % 16
    ∧ win0_1.index t (2 : Fin 3) = 0 :=
  (by decide +kernel : ∀ t : Fin grid0.N, _)

/-- Where the point's 512 entries of the column accumulator start. -/
theorem off1 : ∀ t : Fin cfg0.N, k0_off1 (grid0.coords t) = ![0, t.val % 16 * 512] :=
  (by decide +kernel : ∀ t : Fin grid0.N, _)

/-- The first block's entries are the first set's. -/
theorem x0_apply (t : Fin cfg0.N) (p : Fin 1024) (d : Fin 32) :
    iblk m c 0 t (ix3 0 p d) = P m c (ix3 (bOf t.val) (tile1024 (nOf t.val) p) d) := by
  have hN : cfg0.N = 512 := N_0
  have ht := t.isLt
  obtain ⟨e0, e1, e2⟩ := idx0 t
  show V m c main_arg0 (((cfg0.win 0).blk t).view.emb (ix3 0 p d)) = V m c main_arg0 _
  refine congrArg (V m c main_arg0) (funext fun a => Fin.ext ?_)
  match a with
  | ⟨0, _⟩ => show win0_0.index t (0 : Fin 3) * 1 + 1 * 0 = t.val / 128 % 4; omega
  | ⟨1, _⟩ => show win0_0.index t (1 : Fin 3) * 1024 + 1 * p.val = t.val / 16 % 8 * 1024 + p.val; omega
  | ⟨2, _⟩ => show win0_0.index t (2 : Fin 3) * 32 + 1 * d.val = d.val; omega

/-- The second block's entries are the second set's. -/
theorem x1_apply (t : Fin cfg0.N) (q : Fin 512) (d : Fin 32) :
    iblk m c 1 t (ix3 0 q d) = T m c (ix3 (bOf t.val) (tile512 (mOf t.val) q) d) := by
  have hN : cfg0.N = 512 := N_0
  have ht := t.isLt
  obtain ⟨e0, e1, e2⟩ := idx1 t
  show V m c main_arg1 (((cfg0.win 1).blk t).view.emb (ix3 0 q d)) = V m c main_arg1 _
  refine congrArg (V m c main_arg1) (funext fun a => Fin.ext ?_)
  match a with
  | ⟨0, _⟩ => show win0_1.index t (0 : Fin 3) * 1 + 1 * 0 = t.val / 128 % 4; omega
  | ⟨1, _⟩ => show win0_1.index t (1 : Fin 3) * 512 + 1 * q.val = t.val % 16 * 512 + q.val; omega
  | ⟨2, _⟩ => show win0_1.index t (2 : Fin 3) * 32 + 1 * d.val = d.val; omega

/-- The point's distance tile is the corresponding tile of the distance table. -/
theorem tdist_pt (t : Fin cfg0.N) (p : Fin 1024) (q : Fin 512) :
    tdist (iblk m c 0 t) (iblk m c 1 t) p q
      = Cert.Chamfer.dist (P m c) (T m c) (bOf t.val) (tile1024 (nOf t.val) p) (tile512 (mOf t.val) q) :=
  tdist_eq (iblk m c 0 t) (iblk m c 1 t) (P m c) (T m c) (bOf t.val) (nOf t.val) (mOf t.val) (x0_apply m c t) (x1_apply m c t) p q

/-- How many points of the second set the row accumulator has met after point `k`. -/
def rowBound (k : ℕ) : ℕ := (k % 16 + 1) * 512

/-- How many points of the first set entry `q` of the column accumulator has met after point `k`. -/
def colBound (k : ℕ) (q : Fin 8192) : ℕ :=
  if q.val / 512 ≤ k % 16 then (k / 16 % 8 + 1) * 1024 else k / 16 % 8 * 1024

/-- The row accumulator after a point, from what the point before left (when the point does not start a row of tiles). -/
theorem row_inv (t : Fin cfg0.N)
    (hprev : ¬t.val % 16 = 0 → ∀ p : Fin 1024, prevRow m c t (ix2 0 p)
      = rowMinBelow (P m c) (T m c) (bOf t.val) (tile1024 (nOf t.val) p) (t.val % 16 * 512))
    (p : Fin 1024) :
    (outsAt0 m c t.val t.isLt).2.2.1 (ix2 0 p)
      = rowMinBelow (P m c) (T m c) (bOf t.val) (tile1024 (nOf t.val) p) (rowBound t.val) := by
  rw [row_step m c t]
  refine (rowNext_apply (iblk m c 0 t) (iblk m c 1 t) _ p).trans ?_
  have hd : ((Finset.univ : Finset (Fin 512)).inf fun q => tdist (iblk m c 0 t) (iblk m c 1 t) p q)
      = (Finset.univ : Finset (Fin 512)).inf fun q =>
          Cert.Chamfer.dist (P m c) (T m c) (bOf t.val) (tile1024 (nOf t.val) p) (tile512 (mOf t.val) q) :=
    Finset.inf_congr rfl fun q _ => tdist_pt m c t p q
  rw [hd]
  have hs := rowMinBelow_succ (P m c) (T m c) (bOf t.val) (tile1024 (nOf t.val) p) (mOf t.val)
  refine Eq.trans ?_ hs.symm
  refine congrArg₂ min ?_ rfl
  by_cases h0 : t.val % 16 = 0
  · rw [if_pos h0, pay5_apply]
    show (⊤ : EReal) = rowMinBelow _ _ _ _ (t.val % 16 * 512)
    rw [h0, Nat.zero_mul, rowMinBelow_zero]
  · rw [if_neg h0]
    exact hprev h0 p

/-- The column accumulator after a point, from what the point before left (when the point does not start a batch). -/
theorem col_inv (t : Fin cfg0.N)
    (hprev : ¬t.val % 128 = 0 → ∀ q : Fin 8192, prevCol m c t (ix2 0 q)
      = colMinBelow (P m c) (T m c) (bOf t.val) q
          (if q.val / 512 < t.val % 16 then (t.val / 16 % 8 + 1) * 1024 else t.val / 16 % 8 * 1024))
    (q : Fin 8192) :
    (outsAt0 m c t.val t.isLt).2.2.2 (ix2 0 q)
      = colMinBelow (P m c) (T m c) (bOf t.val) q (colBound t.val q) := by
  have hN : cfg0.N = 512 := N_0
  have ht := t.isLt
  have hq := q.isLt
  have ho := off1 t
  rw [col_step m c t]
  by_cases hin : q.val / 512 = t.val % 16
  · have hq' : q.val - t.val % 16 * 512 < 512 := by omega
    obtain ⟨q', rfl⟩ : ∃ q' : Fin 512, q = tile512 (mOf t.val) q' :=
      ⟨⟨q.val - t.val % 16 * 512, hq'⟩, Fin.ext (by show q.val = t.val % 16 * 512 + (q.val - t.val % 16 * 512); omega)⟩
    have hb : colBound t.val (tile512 (mOf t.val) q') = ((nOf t.val).val + 1) * 1024 := by
      unfold colBound
      rw [if_pos (le_of_eq hin)]
      rfl
    rw [hb, colMinBelow_succ (P m c) (T m c) (bOf t.val) (tile512 (mOf t.val) q') (nOf t.val)]
    refine (colNext_apply_in (iblk m c 0 t) (iblk m c 1 t) (grid0.coords t) scM0_1 (Memref.isWhole_whole _) _
      (t.val % 16 * 512) ho q' (tile512 (mOf t.val) q').isLt).trans ?_
    refine congrArg₂ min ?_ (Finset.inf_congr rfl fun p _ => tdist_pt m c t p q')
    show (if t.val % 128 = 0 then k0_pay6 else prevCol m c t) (ix2 0 (tile512 (mOf t.val) q')) = _
    by_cases h1 : t.val % 128 = 0
    · rw [if_pos h1, pay6_apply]
      have hn : (nOf t.val).val = 0 := by show t.val / 16 % 8 = 0; omega
      rw [hn, Nat.zero_mul, colMinBelow_zero]
    · rw [if_neg h1, hprev h1, if_neg (by omega)]
      rfl
  · refine (colNext_apply_out (iblk m c 0 t) (iblk m c 1 t) (grid0.coords t) scM0_1 (Memref.isWhole_whole _) _
      (t.val % 16 * 512) ho q (by omega)).trans ?_
    by_cases h1 : t.val % 128 = 0
    · rw [if_pos h1, pay6_apply]
      have hb : colBound t.val q = 0 := by
        unfold colBound
        rw [if_neg (by omega)]
        omega
      rw [hb, colMinBelow_zero]
    · rw [if_neg h1, hprev h1 q]
      refine congrArg _ ?_
      unfold colBound
      split_ifs <;> omega

/-- The invariant after point `n`. -/
def Inv (n : ℕ) (h : n < cfg0.N) : Prop :=
  (∀ p : Fin 1024, (outsAt0 m c n h).2.2.1 (ix2 0 p)
      = rowMinBelow (P m c) (T m c) (bOf n) (tile1024 (nOf n) p) (rowBound n))
  ∧ (∀ q : Fin 8192, (outsAt0 m c n h).2.2.2 (ix2 0 q) = colMinBelow (P m c) (T m c) (bOf n) q (colBound n q))

/-- The invariant holds after every point. -/
theorem inv : ∀ (n : ℕ) (h : n < cfg0.N), Inv m c n h
  | 0, h => ⟨fun p => row_inv m c ⟨0, h⟩ (fun h0 => absurd (Nat.zero_mod _) h0) p,
      fun q => col_inv m c ⟨0, h⟩ (fun h1 => absurd (Nat.zero_mod _) h1) q⟩
  | n + 1, h => by
    have hN : cfg0.N = 512 := N_0
    have ih := inv n (Nat.lt_of_succ_lt h)
    refine ⟨fun p => row_inv m c ⟨n + 1, h⟩ (fun h0 p => ?_) p, fun q => col_inv m c ⟨n + 1, h⟩ (fun h1 q => ?_) q⟩
    · have h0' : ¬(n + 1) % 16 = 0 := h0
      show (outsAt0 m c n (Nat.lt_of_succ_lt h)).2.2.1 (ix2 0 p) = _
      rw [ih.1 p]
      have eb : bOf n = bOf (n + 1) := Fin.ext (by show n / 128 % 4 = (n + 1) / 128 % 4; omega)
      have en : nOf n = nOf (n + 1) := Fin.ext (by show n / 16 % 8 = (n + 1) / 16 % 8; omega)
      have er : rowBound n = (n + 1) % 16 * 512 := by unfold rowBound; omega
      rw [eb, en, er]
    · have h1' : ¬(n + 1) % 128 = 0 := h1
      show (outsAt0 m c n (Nat.lt_of_succ_lt h)).2.2.2 (ix2 0 q) = _
      rw [ih.2 q]
      have eb : bOf n = bOf (n + 1) := Fin.ext (by show n / 128 % 4 = (n + 1) / 128 % 4; omega)
      rw [eb]
      refine congrArg _ ?_
      have hq := q.isLt
      show colBound n q = if q.val / 512 < (n + 1) % 16 then ((n + 1) / 16 % 8 + 1) * 1024 else (n + 1) / 16 % 8 * 1024
      unfold colBound
      split_ifs <;> omega

/-- At the last point of a row of tiles the row output holds, for each of the tile's points of the first set, the
    distance to the nearest of all points of the second set. -/
theorem out2_val (t : Fin cfg0.N) (h : t.val % 16 = 15) (p : Fin 1024) :
    (outsAt0 m c t.val t.isLt).1 (ix3 0 0 p) = rowMin (P m c) (T m c) (bOf t.val) (tile1024 (nOf t.val) p) := by
  have hr := (inv m c t.val t.isLt).1 p
  rw [row_step m c t, if_neg (by omega)] at hr
  rw [out2_step m c t h]
  refine (pay3_apply _ p).trans (hr.trans ?_)
  have e : rowBound t.val = 8192 := by unfold rowBound; omega
  rw [e, rowMinBelow_all]

/-- At the last point of a batch the column output holds, for each point of the second set, the distance to the
    nearest of all points of the first set. -/
theorem out3_val (t : Fin cfg0.N) (h : t.val % 128 = 127) (q : Fin 8192) :
    (outsAt0 m c t.val t.isLt).2.1 (ix3 0 0 q) = colMin (P m c) (T m c) (bOf t.val) q := by
  have hc := (inv m c t.val t.isLt).2 q
  rw [col_step m c t, if_neg (by omega)] at hc
  rw [out3_step m c t h]
  refine (pay4_apply _ q).trans (hc.trans ?_)
  have hq := q.isLt
  have e : colBound t.val q = 8192 := by
    unfold colBound
    rw [if_pos (by omega)]
    omega
  rw [e, colMinBelow_all]

end Cert.KernelIdeal.Invariant

end
-- ==== Proof.KernelValue.lean ====
/-
  The tiled program's result.

  The row output array [4, 1, 8192] is written back block by block, a block of 1024 entries at the last point of each
  row of tiles, and by then the block holds the minima over all points of the second set: the array ends at the table
  of nearest-neighbour distances of the first set. The column output array is written back once per batch, at the
  batch's last point, when it holds the minima over all points of the first set. The lines after the region drop the
  unit axis of both arrays and take the two means and their sum.
-/
import proofs.«151113_j5677946765711_2_alg».proof.Proof.Invariant
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.Invariant Cert.Chamfer

variable (m : (ℓ : Loc nD τ sig) → Buf (Elt Ideal) ℓ) (ρ : Dev nD → PrngReg) (c : Dev nD)

/-- The block of the row output a point holds: batch, the unit axis, the tile of the first set. -/
theorem idx2 : ∀ t : Fin cfg0.N, win0_2.index t (0 : Fin 3) = t.val / 128 ∧ win0_2.index t (1 : Fin 3) = 0
    ∧ win0_2.index t (2 : Fin 3) = t.val / 16 % 8 :=
  (by decide +kernel : ∀ t : Fin grid0.N, _)

/-- The block of the column output a point holds: the batch's whole row. -/
theorem idx3 : ∀ t : Fin cfg0.N, win0_3.index t (0 : Fin 3) = t.val / 128 ∧ win0_3.index t (1 : Fin 3) = 0
    ∧ win0_3.index t (2 : Fin 3) = 0 :=
  (by decide +kernel : ∀ t : Fin grid0.N, _)

/-- What a point at the end of a row of tiles writes back is its block of the first table. -/
theorem flushed2_eq (t : Fin cfg0.N) (hf : (cfg0.win 2).flush t = true) :
    (dats m 0 c).flushed 2 t = ((cfg0.win 2).blk t).view.read (Elt Ideal) (rowOut (P m c) (T m c)) := by
  have h15 := (flush0_2 t).mp hf
  have hN : cfg0.N = 512 := N_0
  have ht := t.isLt
  obtain ⟨e0, e1, e2⟩ := idx2 t
  show (cfg0.win 2).cut (grid0.coords t) ((dats m 0 c).after 2 t) = _
  rw [after0_2]
  refine funext fun (j : S1x1x1024.Idx) => ?_
  obtain ⟨u, v, p, rfl⟩ : ∃ (u : Fin 1) (v : Fin 1) (p : Fin 1024), j = ix3 u v p :=
    ⟨j 0, j 1, j 2, eq_ix3 (n0 := 1) (n1 := 1) (n2 := 1024) j⟩
  obtain rfl : u = 0 := Subsingleton.elim _ _
  obtain rfl : v = 0 := Subsingleton.elim _ _
  show (outsAt0 m c t.val t.isLt).1 (ix3 0 0 p) = rowOut (P m c) (T m c) (((cfg0.win 2).blk t).view.emb (ix3 0 0 p))
  rw [out2_val m c t h15 p]
  show rowMin (P m c) (T m c) (bOf t.val) (tile1024 (nOf t.val) p)
    = rowMin (P m c) (T m c) ((((cfg0.win 2).blk t).view.emb (ix3 0 0 p)) 0) ((((cfg0.win 2).blk t).view.emb (ix3 0 0 p)) 2)
  refine congrArg₂ (rowMin (P m c) (T m c)) (Fin.ext ?_) (Fin.ext ?_)
  · show t.val / 128 % 4 = win0_2.index t (0 : Fin 3) * 1 + 1 * 0
    omega
  · show t.val / 16 % 8 * 1024 + p.val = win0_2.index t (2 : Fin 3) * 1024 + 1 * p.val
    omega

/-- What the last point of a batch writes back is the batch's row of the second table. -/
theorem flushed3_eq (t : Fin cfg0.N) (hf : (cfg0.win 3).flush t = true) :
    (dats m 0 c).flushed 3 t = ((cfg0.win 3).blk t).view.read (Elt Ideal) (colOut (P m c) (T m c)) := by
  have h127 := (flush0_3 t).mp hf
  have hN : cfg0.N = 512 := N_0
  have ht := t.isLt
  obtain ⟨e0, e1, e2⟩ := idx3 t
  show (cfg0.win 3).cut (grid0.coords t) ((dats m 0 c).after 3 t) = _
  rw [after0_3]
  refine funext fun (j : S1x1x8192.Idx) => ?_
  obtain ⟨u, v, q, rfl⟩ : ∃ (u : Fin 1) (v : Fin 1) (q : Fin 8192), j = ix3 u v q :=
    ⟨j 0, j 1, j 2, eq_ix3 (n0 := 1) (n1 := 1) (n2 := 8192) j⟩
  obtain rfl : u = 0 := Subsingleton.elim _ _
  obtain rfl : v = 0 := Subsingleton.elim _ _
  show (outsAt0 m c t.val t.isLt).2.1 (ix3 0 0 q) = colOut (P m c) (T m c) (((cfg0.win 3).blk t).view.emb (ix3 0 0 q))
  rw [out3_val m c t h127 q]
  show colMin (P m c) (T m c) (bOf t.val) q
    = colMin (P m c) (T m c) ((((cfg0.win 3).blk t).view.emb (ix3 0 0 q)) 0) ((((cfg0.win 3).blk t).view.emb (ix3 0 0 q)) 2)
  refine congrArg₂ (colMin (P m c) (T m c)) (Fin.ext ?_) (Fin.ext ?_)
  · show t.val / 128 % 4 = win0_3.index t (0 : Fin 3) * 1 + 1 * 0
    omega
  · show q.val = win0_3.index t (2 : Fin 3) * 8192 + 1 * q.val
    omega

/-- The entries of the row output a point's block holds. -/
theorem mem_blk2 (t : Fin cfg0.N) (i : S4x1x8192.Idx) :
    i ∈ ((cfg0.win 2).blk t).view.set ↔ ∀ a : Fin 3, win0_2.index t a * S1x1x1024.size a ≤ (i a).val
      ∧ (i a).val < win0_2.index t a * S1x1x1024.size a + S1x1x1024.size a := by
  show i ∈ ((View.whole main_v0_0).slice (win0_2.rect t)).set ↔ _
  rw [View.set_slice_whole, Rect.mem_set_unit]
  exact Iff.rfl

/-- The entries of the column output a point's block holds. -/
theorem mem_blk3 (t : Fin cfg0.N) (i : S4x1x8192.Idx) :
    i ∈ ((cfg0.win 3).blk t).view.set ↔ ∀ a : Fin 3, win0_3.index t a * S1x1x8192.size a ≤ (i a).val
      ∧ (i a).val < win0_3.index t a * S1x1x8192.size a + S1x1x8192.size a := by
  show i ∈ ((View.whole main_v0_1).slice (win0_3.rect t)).set ↔ _
  rw [View.set_slice_whole, Rect.mem_set_unit]
  exact Iff.rfl

/-- Every entry of the row output is written back by the last point of its row of tiles. -/
theorem cover2 (i : S4x1x8192.Idx) :
    ∃ t : Fin cfg0.N, (cfg0.win 2).flush t = true ∧ i ∈ ((cfg0.win 2).blk t).view.set := by
  have hN : cfg0.N = 512 := N_0
  have h0 : (i 0).val < 4 := (i 0).isLt
  have h1 : (i 1).val < 1 := (i 1).isLt
  have h2 : (i 2).val < 8192 := (i 2).isLt
  obtain ⟨t, tv⟩ : ∃ t : Fin cfg0.N, t.val = (i 0).val * 128 + (i 2).val / 1024 * 16 + 15 :=
    ⟨⟨(i 0).val * 128 + (i 2).val / 1024 * 16 + 15, by omega⟩, rfl⟩
  obtain ⟨e0, e1, e2⟩ := idx2 t
  refine ⟨t, (flush0_2 t).mpr (by omega), ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 1024 ≤ (i 2).val ∧ (i 2).val < win0_2.index t (2 : Fin 3) * 1024 + 1024; omega

/-- Every entry of the column output is written back by the last point of its batch. -/
theorem cover3 (i : S4x1x8192.Idx) :
    ∃ t : Fin cfg0.N, (cfg0.win 3).flush t = true ∧ i ∈ ((cfg0.win 3).blk t).view.set := by
  have hN : cfg0.N = 512 := N_0
  have h0 : (i 0).val < 4 := (i 0).isLt
  have h1 : (i 1).val < 1 := (i 1).isLt
  have h2 : (i 2).val < 8192 := (i 2).isLt
  obtain ⟨t, tv⟩ : ∃ t : Fin cfg0.N, t.val = (i 0).val * 128 + 127 := ⟨⟨(i 0).val * 128 + 127, by omega⟩, rfl⟩
  obtain ⟨e0, e1, e2⟩ := idx3 t
  refine ⟨t, (flush0_3 t).mpr (by omega), ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 8192 ≤ (i 2).val ∧ (i 2).val < win0_3.index t (2 : Fin 3) * 8192 + 8192; omega

/-- The row output array after the region: the first table. -/
theorem final2 : (dats m 0 c).arrAt 2 cfg0.N = rowOut (P m c) (T m c) :=
  (dats m 0 c).arrAt_eq_of_cover 2 (rowOut (P m c) (T m c)) (fun t hf => flushed2_eq m c t hf) cover2

/-- The column output array after the region: the second table. -/
theorem final3 : (dats m 0 c).arrAt 3 cfg0.N = colOut (P m c) (T m c) :=
  (dats m 0 c).arrAt_eq_of_cover 3 (colOut (P m c) (T m c)) (fun t hf => flushed3_eq m c t hf) cover3

/-- The result of the lines after the region: the two means of the two tables, added. -/
theorem tail_eq : Pipeline.afterTail₀ cfgs (dats m) 0 (V0 m) [hostOps1] c main_v7
    = meanSum reducesTo_S4x8192_S_d0_1 h_S_ (rowTable (P m c) (T m c)) (colTable (P m c) (T m c)) := by
  unfold Pipeline.afterTail₀
  show StableHlo.after hostOps1 _ (Proc.devRef .tc main_v7) = _
  after_results
  have hw2 : Pipeline.withArrays (cfgs 0).spec c (V0 m c) (fun w => (dats m 0 c).arrAt w (cfgs 0).N)
      (Proc.tc.devRef main_v0_0) = rowOut (P m c) (T m c) :=
    (Pipeline.withArrays_arr spec0 launch0.win.arr_inj c _ _ 2).trans (final2 m c)
  have hw3 : Pipeline.withArrays (cfgs 0).spec c (V0 m c) (fun w => (dats m 0 c).arrAt w (cfgs 0).N)
      (Proc.tc.devRef main_v0_1) = colOut (P m c) (T m c) :=
    (Pipeline.withArrays_arr spec0 launch0.win.arr_inj c _ _ 3).trans (final3 m c)
  rw [hw2, hw3]
  have hr : (fun i => shapeCast (⟨2, ![4, 8192]⟩ : Shape) (rowOut (P m c) (T m c)) shapeCasts_S4x1x8192_S4x8192 i)
      = rowTable (P m c) (T m c) := funext fun j => by
    obtain ⟨b, n, rfl⟩ : ∃ (b : Fin 4) (n : Fin 8192), j = ix2 b n := ⟨j 0, j 1, eq_ix2 j⟩
    exact shapeCast_apply _ _ _ (ix3 b (0 : Fin 1) n) (by
      rw [Shape.rowMajor_val_three, Shape.rowMajor_val_two]
      show (b.val * 1 + 0) * 8192 + n.val = b.val * 8192 + n.val
      omega)
  have hc : (fun i => shapeCast (⟨2, ![4, 8192]⟩ : Shape) (colOut (P m c) (T m c)) shapeCasts_S4x1x8192_S4x8192 i)
      = colTable (P m c) (T m c) := funext fun j => by
    obtain ⟨b, n, rfl⟩ : ∃ (b : Fin 4) (n : Fin 8192), j = ix2 b n := ⟨j 0, j 1, eq_ix2 j⟩
    exact shapeCast_apply _ _ _ (ix3 b (0 : Fin 1) n) (by
      rw [Shape.rowMajor_val_three, Shape.rowMajor_val_two]
      show (b.val * 1 + 0) * 8192 + n.val = b.val * 8192 + n.val
      omega)
  exact congrArg₂ (meanSum reducesTo_S4x8192_S_d0_1 h_S_) hr hc

/-- The tiled program's run: it terminates with its result at the two means of the two tables, added, and its
    argument arrays unchanged. -/
theorem run : θ_run defs (onTc (τ := τ) (main (F := Ideal))) ⟨m, fun _ => 0, ρ⟩ fun r => ∀ c : Dev nD,
    r.2.mem ((c.tc : Thread nD τ).loc main_v7)
        = meanSum reducesTo_S4x8192_S_d0_1 h_S_ (rowTable (P m c) (T m c)) (colTable (P m c) (T m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v7 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelValue

end
-- ==== Proof.RefRead.lean ====
/-
  The reference's result read index by index: its staged operations (squared norms of the points of both sets,
  their inner products, the root of the clamped squared distance, the two directed minima and the two means)
  composed into one function of the argument arrays. The distance table at (b, n, m) is `Cert.Chamfer.dist`, the
  minimum over the last axis `rowMin`, the minimum over the middle axis `colMin`; what follows them — the sum of
  each table over all its entries divided by their number, and the sum of the two quotients — is `meanSum`, which
  the other program applies to its own two tables.
-/
import proofs.«151113_j5677946765711_2_alg».proof.Proof.Gen.ReferenceIdeal.Read
import proofs.«151113_j5677946765711_2_alg».proof.Proof.Spec
import Idealize.ShloMosaic.Lib.ValueIdx
import Idealize.ShloMosaic.PureOps.Ideal.Laws

set_option maxRecDepth 65536

noncomputable section

namespace Cert.ReferenceIdeal.RefRead

open Idealize.ShloMosaic Idealize.ShloMosaic.ValueIdx Cert.ReferenceIdeal Cert.ReferenceIdeal.Gen Cert.Chamfer

/-- The float word of +∞ denotes the top of the extended reals. -/
theorem ofBits_inf : Ideal.ofBits .f32 0x7F800000#32 = (⊤ : EReal) := by simp [Ideal.ofBits, Ideal.ieee]

variable (x0 x1 : (⟨S4x8192x32, .f32⟩ : BufTy).Contents (Elt Ideal))

/-- The distance table's entry (b, n, m). -/
theorem v15_apply (b : Fin 4) (n m : Fin 8192) :
    Read.val_main_v15 (F := Ideal) x0 x1 (ix3 b n m) = dist x0 x1 b n m := by
  have e1 : ∀ k : Fin 32, Read.idx_main_v1 (Read.idx_main_v5 (Read.idx_main_v7 (ix3 b n m))) k = ix3 b n k := fun k =>
    funext fun a => Fin.ext (by match a with | ⟨0, _⟩ => rfl | ⟨1, _⟩ => rfl | ⟨2, _⟩ => rfl)
  have e3 : ∀ k : Fin 32, Read.idx_main_v3 (Read.idx_main_v6 (Read.idx_main_v8 (ix3 b n m))) k = ix3 b m k := fun k =>
    funext fun a => Fin.ext (by match a with | ⟨0, _⟩ => rfl | ⟨1, _⟩ => rfl | ⟨2, _⟩ => rfl)
  have el : ∀ k : Fin 32, Read.lidx_main_v4 (ix3 b n m) k = ix3 b n k := fun k =>
    funext fun a => Fin.ext (by match a with | ⟨0, _⟩ => rfl | ⟨1, _⟩ => rfl | ⟨2, _⟩ => rfl)
  have er : ∀ k : Fin 32, Read.ridx_main_v4 (ix3 b n m) k = ix3 b m k := fun k =>
    funext fun a => Fin.ext (by match a with | ⟨0, _⟩ => rfl | ⟨1, _⟩ => rfl | ⟨2, _⟩ => rfl)
  rw [Read.val_main_v15_apply, Read.val_main_v14_apply, Read.val_main_v12_apply, Read.val_main_v13_apply,
    Read.val_main_v9_apply, Read.val_main_v11_apply, Read.val_main_v10_apply, Read.val_main_v4_apply,
    Read.val_main_v7_apply, Read.val_main_v8_apply, Read.val_main_v5_apply, Read.val_main_v6_apply,
    Read.val_main_v1_apply, Read.val_main_v3_apply]
  simp only [Read.val_main_v0_apply, Read.val_main_v2_apply, Read.val_main_cst_apply, Read.val_main_cst_0_apply,
    Read.val_main_cst_1_apply, Read.val_main_cst_2_apply, e1, e3, el, er, Ideal.hostUnary_sqrt_def, Ideal.maximumf_def,
    Ideal.subf_def, Ideal.addf_def, Ideal.mulf_def, Ideal.ofBits_def, Ideal.ofBits_zero_f32, zero_add]
  rfl

/-- The minimum over the last axis: the nearest point of the second set. -/
theorem v16_eq : Read.val_main_v16 (F := Ideal) x0 x1 = rowTable x0 x1 := by
  funext j
  obtain ⟨b, n, rfl⟩ : ∃ (b : Fin 4) (n : Fin 8192), j = ix2 b n := ⟨j 0, j 1, eq_ix2 j⟩
  unfold Read.val_main_v16
  rw [Host.reduce_eq_fold_single FloatOps.minimumf _ _ reducesTo_S4x8192x8192_S4x8192_d2 (by decide) h_S_]
  show Finset.fold (min : EReal → EReal → EReal) (Ideal.ofBits .f32 0x7F800000#32) _ _ = _
  rw [ofBits_inf, Finset.fold_min_top_eq_inf]
  show _ = (Finset.univ : Finset (Fin 8192)).inf fun m => dist x0 x1 b n m
  refine Finset.inf_congr rfl fun m _ => ?_
  exact (congrArg (Read.val_main_v15 (F := Ideal) x0 x1)
    (funext fun a => Fin.ext (by match a with | ⟨0, _⟩ => rfl | ⟨1, _⟩ => rfl | ⟨2, _⟩ => rfl))).trans (v15_apply x0 x1 b n m)

/-- The minimum over the middle axis: the nearest point of the first set. -/
theorem v19_eq : Read.val_main_v19 (F := Ideal) x0 x1 = colTable x0 x1 := by
  funext j
  obtain ⟨b, m, rfl⟩ : ∃ (b : Fin 4) (m : Fin 8192), j = ix2 b m := ⟨j 0, j 1, eq_ix2 j⟩
  unfold Read.val_main_v19
  rw [Host.reduce_eq_fold_single FloatOps.minimumf _ _ reducesTo_S4x8192x8192_S4x8192_d1 (by decide) h_S_]
  show Finset.fold (min : EReal → EReal → EReal) (Ideal.ofBits .f32 0x7F800000#32) _ _ = _
  rw [ofBits_inf, Finset.fold_min_top_eq_inf]
  show _ = (Finset.univ : Finset (Fin 8192)).inf fun n => dist x0 x1 b n m
  refine Finset.inf_congr rfl fun n _ => ?_
  exact (congrArg (Read.val_main_v15 (F := Ideal) x0 x1)
    (funext fun a => Fin.ext (by match a with | ⟨0, _⟩ => rfl | ⟨1, _⟩ => rfl | ⟨2, _⟩ => rfl))).trans (v15_apply x0 x1 b n m)

/-- The reference's result: the two means of the two tables of minima, added. -/
theorem result_eq : Read.val_main_v22 (F := Ideal) x0 x1
    = meanSum reducesTo_S4x8192_S_d0_1 h_S_ (rowTable x0 x1) (colTable x0 x1) := by
  rw [← v16_eq, ← v19_eq]
  rfl

end Cert.ReferenceIdeal.RefRead

end
-- ==== Proof.lean ====
/-
  Both programs compute, for two sets of 8192 points in dimension 32 in each of four batches, the mean distance from
  a point of the first set to the nearest point of the second plus the mean distance from a point of the second set
  to the nearest point of the first. The distance of two points is the root of |x|² + |y|² − 2⟨x, y⟩ clamped below
  at zero, in both programs with the same grouping of the three terms, so no law of the real numbers that fails at an
  infinity is used and the inputs' finiteness is not needed.

  The reference takes the minimum of the whole 8192 × 8192 distance table along each axis. The tiled program visits
  the table tile by tile, 1024 × 512 entries at a time, and keeps two running minima: the minimum of a greatest lower
  bound over an initial segment of an axis with the greatest lower bound over the next block of it is the greatest
  lower bound over the longer segment, and after the last block it is the bound over the whole axis. With the two
  tables of minima equal entry by entry, both programs apply the same operations to them: the sum of each table from
  the zero word, its quotient by 32768, the sum of the two quotients.

  The three programs' runs terminate with the argument arrays unchanged; the tiled program on extended reals is the
  printed one with no operation rewritten.
-/
import proofs.«151113_j5677946765711_2_alg».proof.Defs
import proofs.«151113_j5677946765711_2_alg».proof.Proof.Gen.Kernel
import proofs.«151113_j5677946765711_2_alg».proof.Proof.Gen.Kernel.Skeleton
import proofs.«151113_j5677946765711_2_alg».proof.Proof.Gen.Kernel.Launch
import proofs.«151113_j5677946765711_2_alg».proof.Proof.Gen.Kernel.Points
import proofs.«151113_j5677946765711_2_alg».proof.Proof.Gen.Kernel.Frame
import proofs.«151113_j5677946765711_2_alg».proof.Proof.Gen.KernelIdeal
import proofs.«151113_j5677946765711_2_alg».proof.Proof.Gen.KernelIdeal.Skeleton
import proofs.«151113_j5677946765711_2_alg».proof.Proof.Gen.KernelIdeal.Launch
import proofs.«151113_j5677946765711_2_alg».proof.Proof.Gen.KernelIdeal.Points
import proofs.«151113_j5677946765711_2_alg».proof.Proof.Gen.KernelIdeal.Frame
import proofs.«151113_j5677946765711_2_alg».proof.Proof.Gen.ReferenceIdeal
import proofs.«151113_j5677946765711_2_alg».proof.Proof.Gen.ReferenceIdeal.Run
import proofs.«151113_j5677946765711_2_alg».proof.Proof.Gen.ReferenceIdeal.Read
import proofs.«151113_j5677946765711_2_alg».proof.Proof.Gen.Pre_finite_inputs
import proofs.«151113_j5677946765711_2_alg».proof.Proof.KernelValue
import proofs.«151113_j5677946765711_2_alg».proof.Proof.RefRead
import Idealize.ShloMosaic.Adequacy
import Idealize.ShloMosaic.Init

noncomputable section

namespace Cert.Proof

open Idealize.ShloMosaic Idealize.SL.Sem

/-- The printed tiled program runs and leaves its arguments unchanged. -/
theorem frame_k : Cert.frame_Kernel := fun m ρ _ => Cert.Kernel.Gen.frame m ρ

/-- So does the tiled program read on extended reals. -/
theorem frame_ki : Cert.frame_KernelIdeal := fun m ρ _ => Cert.KernelIdeal.Gen.frame m ρ

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the two point sets both programs end at the same extended real: the two means of the
    two tables of nearest-neighbour distances, added. -/
theorem algebraic : Cert.algebraic_KernelIdeal_ReferenceIdeal := by
  intro m ρ m' ρ' _ hagree
  refine ⟨fun c => Cert.Chamfer.meanSum Cert.KernelIdeal.Facts₀.reducesTo_S4x8192_S_d0_1 Cert.KernelIdeal.Facts₀.h_S_
      (Cert.Chamfer.rowTable (Cert.KernelIdeal.Invariant.P m c) (Cert.KernelIdeal.Invariant.T m c))
      (Cert.Chamfer.colTable (Cert.KernelIdeal.Invariant.P m c) (Cert.KernelIdeal.Invariant.T m c)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefRead.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
